-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S320x512 .f32 .bf16
  ∧ IdealRules.truncf_extf.Statement Cert.KernelIdeal.S320x512 .f32 .bf16
  ∧ IdealRules.truncf_extf.Statement Cert.KernelIdeal.S320x512 .f32 .bf16
  ∧ IdealRules.truncf_extf.Statement Cert.KernelIdeal.S320x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x160000 : Shape := ⟨3, ![32, 2, 160000]⟩
abbrev S1025x2048 : Shape := ⟨2, ![1025, 2048]⟩
abbrev S_ : Shape := ⟨0, ![]⟩

class Facts : Prop where
  bcast_S_S32x2x160000 : S_.BroadcastsInDim S32x2x160000 (![] : Fin 0 → Fin S32x2x160000.rank)
  reducesTo_S32x2x160000_S_d0_1_2 : S32x2x160000.ReducesTo [0, 1, 2] S_
  h_S_ : 0 < S_.numel
  bcast_S_S1025x2048 : S_.BroadcastsInDim S1025x2048 (![] : Fin 0 → Fin S1025x2048.rank)
  reducesTo_S1025x2048_S_d0_1 : S1025x2048.ReducesTo [0, 1] S_

variable [Facts]

def fn {F : FTy → Type} [FloatOps F] (main_arg0 : FVec F S32x2x160000 .f32) (main_arg1 : FVec F S1025x2048 .f32) (main_arg2 : FVec F S1025x2048 .f32) : IVec S_ 1 :=
  let main_v0 : FVec F S32x2x160000 .f32 := Host.absf main_arg0
  let main_cst : FVec F S_ .f32 := constant S_ .f32 0x7F800000#32
  let main_v1 : FVec F S32x2x160000 .f32 := broadcastInDim S32x2x160000 ![] bcast_S_S32x2x160000 main_cst
  let main_v2 : IVec S32x2x160000 1 := cmpf .olt main_v0 main_v1
  let main_c : IVec S_ 1 := constantI S_ 1 1#1
  let main_v3 : IVec S_ 1 := (fun x v => Host.reduce IntOp.andi x v reducesTo_S32x2x160000_S_d0_1_2 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  main_v13
-- ==== Kernel.lean ====
abbrev S32x2x160000 : Shape := ⟨3, ![32, 2, 160000]⟩
abbrev S1025x2048 : Shape := ⟨2, ![1025, 2048]⟩
abbrev S_ : Shape := ⟨0, ![]⟩
abbrev S32x2x1 : Shape := ⟨3, ![32, 2, 1]⟩
abbrev S32x2x1024 : Shape := ⟨3, ![32, 2, 1024]⟩
abbrev S32x2x161024 : Shape := ⟨3, ![32, 2, 161024]⟩
abbrev S32x2x162048 : Shape := ⟨3, ![32, 2, 162048]⟩
abbrev S64x162048 : Shape := ⟨2, ![64, 162048]⟩
abbrev S64x167936 : Shape := ⟨2, ![64, 167936]⟩
abbrev S64x328x512 : Shape := ⟨3, ![64, 328, 512]⟩
abbrev S2048x1025 : Shape := ⟨2, ![2048, 1025]⟩
abbrev S2048x1152 : Shape := ⟨2, ![2048, 1152]⟩
abbrev S2048x2304 : Shape := ⟨2, ![2048, 2304]⟩
abbrev S64x313x1025 : Shape := ⟨3, ![64, 313, 1025]⟩
abbrev S1x328x512 : Shape := ⟨3, ![1, 328, 512]⟩
abbrev S1x313x1025 : Shape := ⟨3, ![1, 313, 1025]⟩
abbrev S328x512 : Shape := ⟨2, ![328, 512]⟩
abbrev S320x2304 : Shape := ⟨2, ![320, 2304]⟩
abbrev S320x512 : Shape := ⟨2, ![320, 512]⟩
abbrev S512x2304 : Shape := ⟨2, ![512, 2304]⟩
abbrev S320x1152 : Shape := ⟨2, ![320, 1152]⟩
abbrev S313x1025 : Shape := ⟨2, ![313, 1025]⟩
abbrev S32x2x313x1025 : Shape := ⟨4, ![32, 2, 313, 1025]⟩

abbrev nBuf : Space → Nat
  | .hbm => 34
  | .vmem => 8
  | .smem => 0
  | _ => 0

abbrev bufTy : (tb : Table) → Fin (tcTables nBuf tb) → BufTy
  | .hbm, ⟨0, _⟩ => ⟨S32x2x160000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S32x2x1, .f32⟩
  | .hbm, ⟨5, _⟩ => ⟨S32x2x1024, .f32⟩
  | .hbm, ⟨6, _⟩ => ⟨S32x2x1024, .f32⟩
  | .hbm, ⟨7, _⟩ => ⟨S32x2x161024, .f32⟩
  | .hbm, ⟨8, _⟩ => ⟨S32x2x1, .f32⟩
  | .hbm, ⟨9, _⟩ => ⟨S32x2x1024, .f32⟩
  | .hbm, ⟨10, _⟩ => ⟨S32x2x1024, .f32⟩
  | .hbm, ⟨11, _⟩ => ⟨S32x2x162048, .f32⟩
  | .hbm, ⟨12, _⟩ => ⟨S64x162048, .f32⟩
  | .hbm, ⟨13, _⟩ => ⟨S_, .i32⟩
  | .hbm, ⟨14, _⟩ => ⟨S_, .f32⟩
  | .hbm, ⟨15, _⟩ => ⟨S64x167936, .f32⟩
  | .hbm, ⟨16, _⟩ => ⟨S64x328x512, .f32⟩
  | .hbm, ⟨17, _⟩ => ⟨S2048x1025, .f32⟩
  | .hbm, ⟨18, _⟩ => ⟨S_, .i32⟩
  | .hbm, ⟨19, _⟩ => ⟨S_, .f32⟩
  | .hbm, ⟨20, _⟩ => ⟨S2048x1152, .f32⟩
  | .hbm, ⟨21, _⟩ => ⟨S2048x1025, .f32⟩
  | .hbm, ⟨22, _⟩ => ⟨S_, .i32⟩
  | .hbm, ⟨23, _⟩ => ⟨S_, .f32⟩
  | .hbm, ⟨24, _⟩ => ⟨S2048x1152, .f32⟩
  | .hbm, ⟨25, _⟩ => ⟨S2048x2304, .f32⟩
  | .hbm, ⟨26, _⟩ => ⟨S2048x2304, .bf16⟩
  | .hbm, ⟨27, _⟩ => ⟨S2048x2304, .f32⟩
  | .hbm, ⟨28, _⟩ => ⟨S2048x2304, .f32⟩
  | .hbm, ⟨29, _⟩ => ⟨S2048x2304, .bf16⟩
  | .hbm, ⟨30, _⟩ => ⟨S64x313x1025, .f32⟩
  | .hbm, ⟨31, _⟩ => ⟨S64x313x1025, .f32⟩
  | .hbm, ⟨32, _⟩ => ⟨S32x2x313x1025, .f32⟩
  | .hbm, ⟨33, _⟩ => ⟨S32x2x313x1025, .f32⟩
  | .local _ .vmem, ⟨0, _⟩ => ⟨S1x328x512, .f32⟩
  | .local _ .vmem, ⟨1, _⟩ => ⟨S1x328x512, .f32⟩
  | .local _ .vmem, ⟨2, _⟩ => ⟨S2048x2304, .bf16⟩
  | .local _ .vmem, ⟨3, _⟩ => ⟨S2048x2304, .bf16⟩
  | .local _ .vmem, ⟨4, _⟩ => ⟨S1x313x1025, .f32⟩
  | .local _ .vmem, ⟨5, _⟩ => ⟨S1x313x1025, .f32⟩
  | .local _ .vmem, ⟨6, _⟩ => ⟨S1x313x1025, .f32⟩
  | .local _ .vmem, ⟨7, _⟩ => ⟨S1x313x1025, .f32⟩
  | _, _ => ⟨S32x2x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x328x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x313x1025 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x313x1025 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S32x2x160000_S32x2x1_0_0_0 : S32x2x160000.Slices ![0, 0, 0] S32x2x1
  slices_S32x2x160000_S32x2x1024_0_0_1 : S32x2x160000.Slices ![0, 0, 1] S32x2x1024
  concatenates_S32x2x1024_S32x2x160000_S32x2x161024_d2 : Shape.Concatenates [S32x2x1024, S32x2x160000] S32x2x161024 2
  slices_S32x2x161024_S32x2x1_0_0_161023 : S32x2x161024.Slices ![0, 0, 161023] S32x2x1
  slices_S32x2x161024_S32x2x1024_0_0_159999 : S32x2x161024.Slices ![0, 0, 159999] S32x2x1024
  concatenates_S32x2x161024_S32x2x1024_S32x2x162048_d2 : Shape.Concatenates [S32x2x161024, S32x2x1024] S32x2x162048 2
  shapeCasts_S32x2x162048_S64x162048 : S32x2x162048.ShapeCasts S64x162048
  pads_S64x162048_S64x167936_000_058880 : S64x162048.Pads (![0, 0] : Fin 2 → Nat) ![0, 5888] ![0, 0] S64x167936
  h_S_ : 0 < S_.numel
  shapeCasts_S64x167936_S64x328x512 : S64x167936.ShapeCasts S64x328x512
  transposes_S1025x2048_S2048x1025_1_0 : S1025x2048.Transposes [1, 0] S2048x1025
  pads_S2048x1025_S2048x1152_000_01270 : S2048x1025.Pads (![0, 0] : Fin 2 → Nat) ![0, 127] ![0, 0] S2048x1152
  concatenates_S2048x1152_S2048x1152_S2048x2304_d1 : Shape.Concatenates [S2048x1152, S2048x1152] S2048x2304 1
  bitsLt_bf16_f32 : FTy.bits .bf16 < FTy.bits .f32
  inb_S1x328x512_S1x328x512_0_0_0 : ∀ a, (![0, 0, 0] : Fin 3 → Nat) a + S1x328x512.size a ≤ S1x328x512.size a
  h_S1x328x512 : 0 < S1x328x512.numel
  shapeCasts_S1x328x512_S328x512 : S1x328x512.ShapeCasts S328x512
  rotates_S328x512_d0 : S328x512.Rotates 0 none
  slices_S328x512_o0_0_S320x512 : S328x512.Slices ![0, 0] S320x512
  inb_S2048x2304_S512x2304_0_0 : ∀ a, (![0, 0] : Fin 2 → Nat) a + S512x2304.size a ≤ S2048x2304.size a
  h_S512x2304 : 0 < S512x2304.numel
  shapeCasts_S512x2304_S512x2304 : S512x2304.ShapeCasts S512x2304
  inb_S2048x2304_S512x2304_512_0 : ∀ a, (![512, 0] : Fin 2 → Nat) a + S512x2304.size a ≤ S2048x2304.size a
  inb_S2048x2304_S512x2304_1024_0 : ∀ a, (![1024, 0] : Fin 2 → Nat) a + S512x2304.size a ≤ S2048x2304.size a
  inb_S2048x2304_S512x2304_1536_0 : ∀ a, (![1536, 0] : Fin 2 → Nat) a + S512x2304.size a ≤ S2048x2304.size a
  slices_S320x2304_o0_0_S320x1152 : S320x2304.Slices ![0, 0] S320x1152
  slices_S320x2304_o0_1152_S320x1152 : S320x2304.Slices ![0, 1152] S320x1152
  slices_S320x1152_o0_0_S313x1025 : S320x1152.Slices ![0, 0] S313x1025
  inb_S1x313x1025_S1x313x1025_0_0_0 : ∀ a, (![0, 0, 0] : Fin 3 → Nat) a + S1x313x1025.size a ≤ S1x313x1025.size a
  h_S1x313x1025 : 0 < S1x313x1025.numel
  shapeCasts_S1x313x1025_S313x1025 : S1x313x1025.ShapeCasts S313x1025
  shapeCasts_S313x1025_S1x313x1025 : S313x1025.ShapeCasts S1x313x1025
  shapeCasts_S64x313x1025_S32x2x313x1025 : S64x313x1025.ShapeCasts S32x2x313x1025
  dot_S320x512_S512x2304_S320x2304_1_0_0_1_n_n_wf : DotDims.WF S320x512 S512x2304 S320x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x328x512.size a ≤ S64x328x512.size a
  hwx0_0 : ∀ i : grid0.Coords, EltTy.bits .f32 = 32 ∨ (Rect.block (s := S64x328x512) S1x328x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2304.size a ≤ S2048x2304.size a
  hwx0_1 : ∀ i : grid0.Coords, EltTy.bits .bf16 = 32 ∨ (Rect.block (s := S2048x2304) S2048x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2304.size a ≤ S2048x2304.size a
  hwx0_2 : ∀ i : grid0.Coords, EltTy.bits .bf16 = 32 ∨ (Rect.block (s := S2048x2304) S2048x2304.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x313x1025.size a ≤ S64x313x1025.size a
  hwx0_3 : ∀ i : grid0.Coords, EltTy.bits .f32 = 32 ∨ (Rect.block (s := S64x313x1025) S1x313x1025.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x313x1025.size a ≤ S64x313x1025.size a
  hwx0_4 : ∀ i : grid0.Coords, EltTy.bits .f32 = 32 ∨ (Rect.block (s := S64x313x1025) S1x313x1025.size (cc0_transform_4 i) (hinb0_4 i)).WholeWords (EltTy.packing .f32)

variable [Facts₀]

def dot_S320x512_S512x2304_S320x2304_1_0_0_1_n_n : DotDims S320x512 S512x2304 S320x2304 where
  lhsContracting := [1]
  rhsContracting := [0]
  lhsNonContracting := [0]
  rhsNonContracting := [1]
  lhsBatch := []
  rhsBatch := []
  wf := dot_S320x512_S512x2304_S320x2304_1_0_0_1_n_n_wf

abbrev win0_0 : Pipeline.Window sig grid0 :=
  Pipeline.Window.ofSpec (Memref.whole main_v3) S1x328x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S1x313x1025.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S1x313x1025.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2x160000 : Shape := ⟨3, ![32, 2, 160000]⟩
abbrev S1025x2048 : Shape := ⟨2, ![1025, 2048]⟩
abbrev S_ : Shape := ⟨0, ![]⟩
abbrev S32x2x1 : Shape := ⟨3, ![32, 2, 1]⟩
abbrev S32x2x1024 : Shape := ⟨3, ![32, 2, 1024]⟩
abbrev S32x2x161024 : Shape := ⟨3, ![32, 2, 161024]⟩
abbrev S32x2x162048 : Shape := ⟨3, ![32, 2, 162048]⟩
abbrev S313 : Shape := ⟨1, ![313]⟩
abbrev S313x1 : Shape := ⟨2, ![313, 1]⟩
abbrev S2048 : Shape := ⟨1, ![2048]⟩
abbrev S1x2048 : Shape := ⟨2, ![1, 2048]⟩
abbrev S313x2048 : Shape := ⟨2, ![313, 2048]⟩
abbrev S313x2048x1 : Shape := ⟨3, ![313, 2048, 1]⟩
abbrev S32x2x313x2048 : Shape := ⟨4, ![32, 2, 313, 2048]⟩
abbrev S32x2x313x1025 : Shape := ⟨4, ![32, 2, 313, 1025]⟩

abbrev nBuf : Space → Nat
  | .hbm => 33
  | .vmem => 0
  | .smem => 0
  | _ => 0

abbrev bufTy : (tb : Table) → Fin (tcTables nBuf tb) → BufTy
  | .hbm, ⟨0, _⟩ => ⟨S32x2x160000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S32x2x1, .f32⟩
  | .hbm, ⟨5, _⟩ => ⟨S32x2x1024, .f32⟩
  | .hbm, ⟨6, _⟩ => ⟨S32x2x1024, .f32⟩
  | .hbm, ⟨7, _⟩ => ⟨S32x2x161024, .f32⟩
  | .hbm, ⟨8, _⟩ => ⟨S32x2x1, .f32⟩
  | .hbm, ⟨9, _⟩ => ⟨S32x2x1024, .f32⟩
  | .hbm, ⟨10, _⟩ => ⟨S32x2x1024, .f32⟩
  | .hbm, ⟨11, _⟩ => ⟨S32x2x162048, .f32⟩
  | .hbm, ⟨12, _⟩ => ⟨S313, .i32⟩
  | .hbm, ⟨13, _⟩ => ⟨S313x1, .i32⟩
  | .hbm, ⟨14, _⟩ => ⟨S_, .i32⟩
  | .hbm, ⟨15, _⟩ => ⟨S313x1, .i32⟩
  | .hbm, ⟨16, _⟩ => ⟨S313x1, .i32⟩
  | .hbm, ⟨17, _⟩ => ⟨S2048, .i32⟩
  | .hbm, ⟨18, _⟩ => ⟨S1x2048, .i32⟩
  | .hbm, ⟨19, _⟩ => ⟨S313x2048, .i32⟩
  | .hbm, ⟨20, _⟩ => ⟨S313x2048, .i32⟩
  | .hbm, ⟨21, _⟩ => ⟨S313x2048, .i32⟩
  | .hbm, ⟨22, _⟩ => ⟨S_, .i32⟩
  | .hbm, ⟨23, _⟩ => ⟨S313x2048, .i32⟩
  | .hbm, ⟨24, _⟩ => ⟨S313x2048, .i1⟩
  | .hbm, ⟨25, _⟩ => ⟨S_, .i32⟩
  | .hbm, ⟨26, _⟩ => ⟨S313x2048, .i32⟩
  | .hbm, ⟨27, _⟩ => ⟨S313x2048, .i32⟩
  | .hbm, ⟨28, _⟩ => ⟨S313x2048, .i32⟩
  | .hbm, ⟨29, _⟩ => ⟨S313x2048x1, .i32⟩
  | .hbm, ⟨30, _⟩ => ⟨S32x2x313x2048, .f32⟩
  | .hbm, ⟨31, _⟩ => ⟨S32x2x313x1025, .f32⟩
  | .hbm, ⟨32, _⟩ => ⟨S32x2x313x1025, .f32⟩
  | _, _ => ⟨S32x2x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  slices_S32x2x160000_S32x2x1_0_0_0 : S32x2x160000.Slices ![0, 0, 0] S32x2x1
  slices_S32x2x160000_S32x2x1024_0_0_1 : S32x2x160000.Slices ![0, 0, 1] S32x2x1024
  concatenates_S32x2x1024_S32x2x160000_S32x2x161024_d2 : Shape.Concatenates [S32x2x1024, S32x2x160000] S32x2x161024 2
  slices_S32x2x161024_S32x2x1_0_0_161023 : S32x2x161024.Slices ![0, 0, 161023] S32x2x1
  slices_S32x2x161024_S32x2x1024_0_0_159999 : S32x2x161024.Slices ![0, 0, 159999] S32x2x1024
  concatenates_S32x2x161024_S32x2x1024_S32x2x162048_d2 : Shape.Concatenates [S32x2x161024, S32x2x1024] S32x2x162048 2
  bcast_S313_S313x1_0 : S313.BroadcastsInDim S313x1 (![0] : Fin 1 → Fin S313x1.rank)
  bcast_S_S313x1 : S_.BroadcastsInDim S313x1 (![] : Fin 0 → Fin S313x1.rank)
  bcast_S2048_S1x2048_1 : S2048.BroadcastsInDim S1x2048 (![1] : Fin 1 → Fin S1x2048.rank)
  bcast_S313x1_S313x2048_0_1 : S313x1.BroadcastsInDim S313x2048 (![0, 1] : Fin 2 → Fin S313x2048.rank)
  bcast_S1x2048_S313x2048_0_1 : S1x2048.BroadcastsInDim S313x2048 (![0, 1] : Fin 2 → Fin S313x2048.rank)
  bcast_S_S313x2048 : S_.BroadcastsInDim S313x2048 (![] : Fin 0 → Fin S313x2048.rank)
  bcast_S313x2048_S313x2048x1_0_1 : S313x2048.BroadcastsInDim S313x2048x1 (![0, 1] : Fin 2 → Fin S313x2048x1.rank)
  gather_S32x2x162048_S313x2048x1_S32x2x313x2048_01_2_n_n_2_2_3221_wf : GatherDims.WF S32x2x162048 S313x2048x1 S32x2x313x2048 [0, 1] [2] [] [2] [] 2 ![32, 2, 1]
  dot_S32x2x313x2048_S1025x2048_S32x2x313x1025_3_1_012_0_n_n_wf : DotDims.WF S32x2x313x2048 S1025x2048 S32x2x313x1025 [3] [1] [0, 1, 2] [0] [] []

variable [Facts₀]

def gather_S32x2x162048_S313x2048x1_S32x2x313x2048_01_2_n_n_2_2_3221 : GatherDims S32x2x162048 S313x2048x1 S32x2x313x2048 where
  offsetDims := [0, 1]
  collapsedSliceDims := [2]
  operandBatchingDims := []
  startIndicesBatchingDims := []
  startIndexMap := [2]
  indexVectorDim := 2
  sliceSizes := ![32, 2, 1]
  wf := gather_S32x2x162048_S313x2048x1_S32x2x313x2048_01_2_n_n_2_2_3221_wf
def dot_S32x2x313x2048_S1025x2048_S32x2x313x1025_3_1_012_0_n_n : DotDims S32x2x313x2048 S1025x2048 S32x2x313x1025 where
  lhsContracting := [3]
  rhsContracting := [1]
  lhsNonContracting := [0, 1, 2]
  rhsNonContracting := [0]
  lhsBatch := []
  rhsBatch := []
  wf := dot_S32x2x313x2048_S1025x2048_S32x2x313x1025_3_1_012_0_n_n_wf

class Facts : Prop extends Facts₀ where

variable [Facts]
-- ==== Proof.LibBatchStats.lean ====
/-
  Batch statistics on the extended reals.

  * The coercion of a finite sum of real numbers into the extended reals is the sum of the coercions.
  * The population variance of finitely many REAL numbers, computed as the mean of the squared deviations from
    the mean, equals the mean of the squares minus the squared mean; stated over the reals and, with the mean taken
    as a product with the reciprocal of the count, over the extended reals at real (finite) entries.  Over the
    extended reals the identity needs the entries finite: with an infinite entry the deviation is a difference
    of infinities.
  * A sum over a range of `a * b` indices is the sum, block by block, of the `a` consecutive blocks of `b` indices
    (a column sum accumulated one row block at a time against the sum over all rows); it holds in every
    commutative additive monoid, the extended reals included, with no finiteness hypothesis.
-/
import Mathlib.Data.EReal.Inv
import Mathlib.Algebra.BigOperators.Fin
import Mathlib.Tactic

namespace Cert.Lib.BatchStats

open Finset

/-- The coercion `ℝ → EReal` commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Mean of squared deviations = mean of squares − squared mean, over the reals; `n` is the number of entries. -/
theorem var_real {ι : Type*} [Fintype ι] (z : ι → ℝ) (n : ℝ) (hn : n ≠ 0)
    (hcard : (Fintype.card ι : ℝ) = n) :
    (∑ i, (z i - (∑ j, z j) / n) * (z i - (∑ j, z j) / n)) / n
      = (∑ i, z i * z i) / n - ((∑ j, z j) / n) * ((∑ j, z j) / n) := by
  have h1 : ∑ i, (z i - (∑ j, z j) / n) * (z i - (∑ j, z j) / n)
      = (∑ i, z i * z i) - 2 * ((∑ j, z j) / n) * (∑ j, z j) + n * (((∑ j, z j) / n) * ((∑ j, z j) / n)) := by
    have h2 : ∀ i, (z i - (∑ j, z j) / n) * (z i - (∑ j, z j) / n)
        = z i * z i - 2 * ((∑ j, z j) / n) * z i + ((∑ j, z j) / n) * ((∑ j, z j) / n) := fun i => by ring
    simp only [h2, Finset.sum_add_distrib, Finset.sum_sub_distrib, ← Finset.mul_sum, Finset.sum_const,
      Finset.card_univ, nsmul_eq_mul, hcard]
    ring
  rw [h1]
  field_simp
  ring

/-- The same identity over the extended reals at real entries, the divisions by the count `n` written as
    products with the real `1 / n` (what a quotient by a nonzero real constant is on the extended reals). -/
theorem var_ereal {ι : Type*} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hr := var_real x n hn hcard
  simp only [div_eq_mul_inv] at hr
  simp only [one_div]
  have e1 : (∑ j, (x j : EReal)) * ((n⁻¹ : ℝ) : EReal) = (((∑ j, x j) * n⁻¹ : ℝ) : EReal) := by
    rw [← coe_sum, ← EReal.coe_mul]
  rw [e1]
  have e2 : ∀ i, ((x i : EReal) - (((∑ j, x j) * n⁻¹ : ℝ) : EReal)) * ((x i : EReal) - (((∑ j, x j) * n⁻¹ : ℝ) : EReal))
      = (((x i - (∑ j, x j) * n⁻¹) * (x i - (∑ j, x j) * n⁻¹) : ℝ) : EReal) := fun i => by
    rw [← EReal.coe_sub, ← EReal.coe_mul]
  have e3 : ∀ i, (x i : EReal) * (x i : EReal) = ((x i * x i : ℝ) : EReal) := fun i => (EReal.coe_mul _ _).symm
  rw [Finset.sum_congr rfl (fun i _ => e2 i), Finset.sum_congr rfl (fun i _ => e3 i), ← coe_sum, ← coe_sum,
    ← EReal.coe_mul, ← EReal.coe_mul, ← EReal.coe_mul, ← EReal.coe_sub]
  exact congrArg _ hr

/-- A sum over `a * b` consecutive indices, block by block: block `t` holds the indices `r + b * t`, `r < b`. -/
theorem sum_blocks {M : Type*} [AddCommMonoid M] (a b : ℕ) (f : Fin (a * b) → M) :
    ∑ i, f i = ∑ t : Fin a, ∑ r : Fin b, f (finProdFinEquiv (t, r)) := by
  rw [← Fintype.sum_prod_type' (f := fun (t : Fin a) (r : Fin b) => f (finProdFinEquiv (t, r)))]
  exact (Fintype.sum_equiv finProdFinEquiv _ _ (fun _ => rfl)).symm

/-- The index of row `r` of block `t`. -/
theorem block_index_val (a b : ℕ) (t : Fin a) (r : Fin b) :
    (finProdFinEquiv (t, r) : Fin (a * b)).val = r.val + b * t.val := rfl

end Cert.Lib.BatchStats
-- ==== Proof.Spec.lean ====
/-
  The short-time Fourier transform as one function of the padded signal and a weight matrix.

  The signal x (32 × 2 × 160000) is reflect-padded by 1024 samples on each side of its last axis; frame t takes the
  2048 consecutive padded samples starting at 512·t, and output channel k is the sum over the 2048 taps n of
  sample(512·t + n) · W(k, n).  Both programs build the padded signal by the same slices, reversals and
  concatenations, so it is carried here as ONE function `reflectPad` that is never opened: all that is needed
  of it is that it holds real numbers when x does (every entry of a slice, a reversal or a concatenation is an
  entry of an operand).

  The 2048 taps split into four blocks of 512 (tap n = 512·i + j): the sum over all taps is the sum of the four
  block sums, in any commutative monoid, the extended reals included.
-/
import Idealize.ShloMosaic.PureOps.Ideal
import Idealize.ShloMosaic.Lib.ValueIdx
import proofs.«149669_j21380347199929_2_alg».proof.Proof.LibBatchStats

noncomputable section

namespace Cert.Stft

open Idealize.ShloMosaic Idealize.ShloMosaic.ValueIdx

abbrev SIn : Shape := ⟨3, ![32, 2, 160000]⟩
abbrev SEdge : Shape := ⟨3, ![32, 2, 1024]⟩
abbrev SMid : Shape := ⟨3, ![32, 2, 161024]⟩
abbrev SPad : Shape := ⟨3, ![32, 2, 162048]⟩
abbrev SWt : Shape := ⟨2, ![1025, 2048]⟩
abbrev SOut : Shape := ⟨4, ![32, 2, 313, 1025]⟩

/-- Every entry is a real number (neither infinity). -/
def AllReal {ι : Type} (x : ι → EReal) : Prop := ∀ i, ∃ r : ℝ, x i = (r : EReal)

theorem cat_mid : Shape.Concatenates [SEdge, SIn] SMid 2 := by decide
theorem cat_pad : Shape.Concatenates [SMid, SEdge] SPad 2 := by decide

/-- The signal reflected about its first and its last sample, 1024 samples on each side: samples 1..1024 reversed,
    then the signal, then samples 158975..159998 reversed. -/
def reflectPad {α : Type} (x : SIn.Idx → α) : SPad.Idx → α :=
  concatenate SPad 2
    [⟨SMid, concatenate SMid 2 [⟨SEdge, Host.reverse [2] (extractStridedSlice SEdge ![0, 0, 1] x (by decide))⟩, ⟨SIn, x⟩] cat_mid⟩,
     ⟨SEdge, Host.reverse [2] (extractStridedSlice SEdge ![0, 0, 159999]
        (concatenate SMid 2 [⟨SEdge, Host.reverse [2] (extractStridedSlice SEdge ![0, 0, 1] x (by decide))⟩, ⟨SIn, x⟩] cat_mid) (by decide))⟩]
    cat_pad

/-- An entry of a concatenation is an entry of one of its pieces. -/
theorem concatenate_mem {α : Type} (P : α → Prop) (t : Shape) (a : Fin t.rank) (xs : List ((s : Shape) × (s.Idx → α)))
    (h : Shape.Concatenates (xs.map (·.1)) t a) (hP : ∀ p ∈ xs, ∀ k, P (p.2 k)) (j : t.Idx) :
    P (concatenate t a xs h j) := by
  unfold concatenate
  exact hP _ (List.getElem_mem _) _

/-- The padded signal holds real numbers when the signal does. -/
theorem reflectPad_real (x : SIn.Idx → EReal) (hx : AllReal x) : AllReal (reflectPad x) := by
  have hL : AllReal (Host.reverse (s := SEdge) [2] (extractStridedSlice SEdge ![0, 0, 1] x (by decide))) := fun i => hx _
  have hM : AllReal (concatenate SMid 2 [⟨SEdge, Host.reverse [2] (extractStridedSlice SEdge ![0, 0, 1] x (by decide))⟩, ⟨SIn, x⟩] cat_mid) := by
    intro j
    refine concatenate_mem (fun v => ∃ r : ℝ, v = (r : EReal)) _ _ _ _ ?_ j
    intro p hp k
    simp only [List.mem_cons, List.mem_nil_iff, or_false] at hp
    rcases hp with rfl | rfl
    · exact hL k
    · exact hx k
  intro j
  refine concatenate_mem (fun v => ∃ r : ℝ, v = (r : EReal)) _ _ _ _ ?_ j
  intro p hp k
  simp only [List.mem_cons, List.mem_nil_iff, or_false] at hp
  rcases hp with rfl | rfl
  · exact hM k
  · dsimp only [Host.reverse, extractStridedSlice]; exact hM _

theorem tap_lt (t : Fin 313) (n : Fin 2048) : t.val * 512 + n.val < 162048 := by omega

/-- Output (b, c, t, k): the sum over the 2048 taps of padded sample 512·t + n times weight (k, n). -/
def dftAt (xp : SPad.Idx → EReal) (w : SWt.Idx → EReal) (b : Fin 32) (c : Fin 2) (t : Fin 313) (k : Fin 1025) : EReal :=
  ∑ n : Fin 2048, xp (ix3 b c (⟨t.val * 512 + n.val, tap_lt t n⟩ : Fin 162048)) * w (ix2 k n)

/-- The whole output array. -/
def dft (xp : SPad.Idx → EReal) (w : SWt.Idx → EReal) : SOut.Idx → EReal :=
  fun i => dftAt xp w (i 0) (i 1) (i 2) (i 3)

theorem dft_ix4 (xp : SPad.Idx → EReal) (w : SWt.Idx → EReal) (b : Fin 32) (c : Fin 2) (t : Fin 313) (k : Fin 1025) :
    dft xp w (ix4 b c t k) = dftAt xp w b c t k := rfl

/-- A sum over 2048 taps is the sum of its four blocks of 512: tap 512·i + j for i < 4, j < 512. -/
theorem sum_taps {M : Type*} [AddCommMonoid M] (f : Fin 2048 → M) :
    ∑ n, f n = ∑ i : Fin 4, ∑ j : Fin 512, f ⟨j.val + 512 * i.val, by omega⟩ :=
  Cert.Lib.BatchStats.sum_blocks 4 512 f

end Cert.Stft

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Payload.lean ====
/-
  The kernel body's arithmetic at one entry.

  The body holds one 328 × 512 block of signal chunks (chunk row r, sample j within the chunk) and two 2048 × 2304
  weight arrays, a high part and a low part, cut into four 512-row blocks.  For shift i < 4 it rotates the chunk rows so
  that row r + i comes to row r, keeps the first 320 rows (the segment), and adds to the accumulator three products:
  segment · high, segment · low, and (segment − segment) · high.  On real entries segment − segment is 0, and when the
  low part is 0 the second product vanishes too, so entry (r, q) of the accumulator is

      Σ_{i < 4} Σ_{j < 512} chunk(r + i, j) · high(512·i + j, q).

  The two stored blocks are the columns 0..1024 and 1152..2176 of rows 0..312 of that accumulator.
-/
import proofs.«149669_j21380347199929_2_alg».proof.Proof.Gen.KernelIdeal.Skeleton
import proofs.«149669_j21380347199929_2_alg».proof.Proof.Spec
import proofs.«149669_j21380347199929_2_alg».proof.Proof.LibPlainDot
import Idealize.ShloMosaic.Lib.KernelVsHost
import Idealize.ShloMosaic.Lib.ValueLayout
import Idealize.ShloMosaic.Lib.Pipeline.Value

noncomputable section

namespace Cert.Stft.Body

open Idealize.ShloMosaic Idealize.ShloMosaic.ValueIdx Cert.KernelIdeal Cert.KernelIdeal.Gen Cert.Stft

/-- A real number minus itself is zero on the extended reals. -/
theorem real_sub_self (x : EReal) (h : ∃ r : ℝ, x = (r : EReal)) : x - x = 0 := by
  obtain ⟨r, rfl⟩ := h
  rw [← EReal.coe_sub, sub_self, EReal.coe_zero]

/-- One tile product into the zero accumulator at entry (r, q): the sum over the 512 contracted positions. -/
theorem mm_at (a : FVec Ideal S320x512 .bf16) (b : FVec Ideal S512x2304 .bf16) (r : Fin 320) (q : Fin 2304) :
    matmul dot_S320x512_S512x2304_S320x2304_1_0_0_1_n_n none a b (constant (F := Ideal) S320x2304 .f32 0x00000000#32) (ix2 r q)
      = ∑ j : Fin 512, a (ix2 r j) * b (ix2 j q) :=
  Cert.LibPlainDot.matmul_zero_apply _ rfl rfl rfl rfl (fun _ _ => rfl) (fun _ _ => rfl) none a b r q

/-- The chunk rows rotated by 328 − i and cut to the first 320 rows: row r is chunk row r + i. -/
theorem seg_at (w : FVec Ideal S328x512 .f32) (sb : BitVec 32) (i : Nat) (hi : i < 8) (hsb : sb.toNat % 328 = (328 - i) % 328)
    (r : Fin 320) (j : Fin 512) :
    extractStridedSlice S320x512 ![0, 0] (dynamicRotate 0 sb none w rotates_S328x512_d0) slices_S328x512_o0_0_S320x512 (ix2 r j)
      = w (ix2 (⟨r.val + i, by omega⟩ : Fin 328) j) := by
  refine (extractStridedSlice_apply ![0, 0] _ _ (ix2 r j) (ix2 (⟨r.val, by omega⟩ : Fin 328) j) ?_).trans ?_
  · intro a
    match a with
    | ⟨0, _⟩ => show r.val = 0 + r.val; omega
    | ⟨1, _⟩ => show j.val = 0 + j.val; omega
  refine dynamicRotate_apply 0 sb w _ (ix2 (⟨r.val, by omega⟩ : Fin 328) j) (ix2 (⟨r.val + i, by omega⟩ : Fin 328) j) ?_
  intro b
  by_cases hb : b = 0
  · rw [if_pos hb]; subst hb
    show r.val + i = (r.val + 328 - sb.toNat % 328) % 328
    rw [hsb]; omega
  · rw [if_neg hb]
    match b, hb with
    | ⟨0, _⟩, hb => exact absurd rfl hb
    | ⟨1, _⟩, _ => rfl

theorem seg0 (w : FVec Ideal S328x512 .f32) (r : Fin 320) (j : Fin 512) :
    extractStridedSlice S320x512 ![0, 0] (dynamicRotate 0 0#32 none w rotates_S328x512_d0) slices_S328x512_o0_0_S320x512 (ix2 r j)
      = w (ix2 (⟨r.val + 0, by omega⟩ : Fin 328) j) := seg_at w 0#32 0 (by omega) (by decide) r j
theorem seg1 (w : FVec Ideal S328x512 .f32) (r : Fin 320) (j : Fin 512) :
    extractStridedSlice S320x512 ![0, 0] (dynamicRotate 0 327#32 none w rotates_S328x512_d0) slices_S328x512_o0_0_S320x512 (ix2 r j)
      = w (ix2 (⟨r.val + 1, by omega⟩ : Fin 328) j) := seg_at w 327#32 1 (by omega) (by decide) r j
theorem seg2 (w : FVec Ideal S328x512 .f32) (r : Fin 320) (j : Fin 512) :
    extractStridedSlice S320x512 ![0, 0] (dynamicRotate 0 326#32 none w rotates_S328x512_d0) slices_S328x512_o0_0_S320x512 (ix2 r j)
      = w (ix2 (⟨r.val + 2, by omega⟩ : Fin 328) j) := seg_at w 326#32 2 (by omega) (by decide) r j
theorem seg3 (w : FVec Ideal S328x512 .f32) (r : Fin 320) (j : Fin 512) :
    extractStridedSlice S320x512 ![0, 0] (dynamicRotate 0 325#32 none w rotates_S328x512_d0) slices_S328x512_o0_0_S320x512 (ix2 r j)
      = w (ix2 (⟨r.val + 3, by omega⟩ : Fin 328) j) := seg_at w 325#32 3 (by omega) (by decide) r j

/-- The loaded 1 × 328 × 512 block with its unit axis dropped. -/
theorem chunk_at (v0 : Vec Ideal S1x328x512 .f32) (r : Fin 328) (j : Fin 512) :
    k0_pay2 v0 (ix2 r j) = v0 (ix3 (0 : Fin 1) r j) := by
  unfold k0_pay2
  exact shapeCast_1ab_ab_apply v0 _ r j

theorem scalar_zero : Scalar.ofBits (F := Ideal) .f32 0x00000000#32 = (0 : EReal) := Ideal.ofBits_zero_f32

/-- The accumulator after the four shifts, at entry (r, q), on real chunks and a zero low part. -/
theorem acc_at (v0 : Vec Ideal S1x328x512 .f32) (hv0 : AllReal v0)
    (h0 l0 h1 l1 h2 l2 h3 l3 : Vec Ideal S512x2304 .bf16)
    (hl0 : ∀ i, l0 i = (0 : EReal)) (hl1 : ∀ i, l1 i = (0 : EReal)) (hl2 : ∀ i, l2 i = (0 : EReal)) (hl3 : ∀ i, l3 i = (0 : EReal))
    (r : Fin 320) (q : Fin 2304) :
    k0_pay6 (k0_pay2 v0) (k0_pay3 v0 h0 l0 h1 l1) (k0_pay4 v0) (k0_pay5 v0) h2 l2 h3 l3 (ix2 r q)
      = (∑ j : Fin 512, v0 (ix3 (0 : Fin 1) (⟨r.val + 0, by omega⟩ : Fin 328) j) * h0 (ix2 j q))
        + (∑ j : Fin 512, v0 (ix3 (0 : Fin 1) (⟨r.val + 1, by omega⟩ : Fin 328) j) * h1 (ix2 j q))
        + (∑ j : Fin 512, v0 (ix3 (0 : Fin 1) (⟨r.val + 2, by omega⟩ : Fin 328) j) * h2 (ix2 j q))
        + (∑ j : Fin 512, v0 (ix3 (0 : Fin 1) (⟨r.val + 3, by omega⟩ : Fin 328) j) * h3 (ix2 j q)) := by
  have hsub : ∀ i, v0 i - v0 i = (0 : EReal) := fun i => real_sub_self _ (hv0 i)
  unfold k0_pay6 k0_pay3 k0_pay5 k0_pay4
  simp only [addf_apply, broadcast_apply, mm_at, truncf_apply, subf_apply, shapeCast_self,
    seg0 (k0_pay2 v0) r, seg1 (k0_pay2 v0) r, seg2 (k0_pay2 v0) r, seg3 (k0_pay2 v0) r, chunk_at v0,
    scalar_zero, Ideal.ofBits_def, Ideal.ofBits_zero_f32, hsub, hl0, hl1, hl2, hl3, mul_zero, zero_mul, Finset.sum_const_zero, add_zero, zero_add]

/-- The first stored block at (0, t, k): the accumulator at row t, column k. -/
theorem out_re_at (w : FVec Ideal S328x512 .f32) (acc : FVec Ideal S320x2304 .f32) (s : FVec Ideal S320x512 .f32) (sb : FVec Ideal S320x512 .bf16)
    (h2 l2 h3 l3 : Vec Ideal S512x2304 .bf16) (t : Fin 313) (k : Fin 1025) :
    k0_pay7 w acc s sb h2 l2 h3 l3 (ix3 (0 : Fin 1) t k)
      = k0_pay6 w acc s sb h2 l2 h3 l3 (ix2 (⟨t.val, by omega⟩ : Fin 320) (⟨k.val, by omega⟩ : Fin 2304)) := by
  unfold k0_pay7
  refine (shapeCast_ab_1ab_apply _ _ (0 : Fin 1) t k).trans ?_
  refine (extractStridedSlice_apply ![0, 0] _ _ (ix2 t k) (ix2 (⟨t.val, by omega⟩ : Fin 320) (⟨k.val, by omega⟩ : Fin 1152)) ?_).trans ?_
  · intro a
    match a with
    | ⟨0, _⟩ => show t.val = 0 + t.val; omega
    | ⟨1, _⟩ => show k.val = 0 + k.val; omega
  refine extractStridedSlice_apply ![0, 0] _ _ _ (ix2 (⟨t.val, by omega⟩ : Fin 320) (⟨k.val, by omega⟩ : Fin 2304)) ?_
  intro a
  match a with
  | ⟨0, _⟩ => show t.val = 0 + t.val; omega
  | ⟨1, _⟩ => show k.val = 0 + k.val; omega

/-- The second stored block at (0, t, k): the accumulator at row t, column 1152 + k. -/
theorem out_im_at (w : FVec Ideal S328x512 .f32) (acc : FVec Ideal S320x2304 .f32) (s : FVec Ideal S320x512 .f32) (sb : FVec Ideal S320x512 .bf16)
    (h2 l2 h3 l3 : Vec Ideal S512x2304 .bf16) (t : Fin 313) (k : Fin 1025) :
    k0_pay1 (k0_pay8 w acc s sb h2 l2 h3 l3) (ix3 (0 : Fin 1) t k)
      = k0_pay6 w acc s sb h2 l2 h3 l3 (ix2 (⟨t.val, by omega⟩ : Fin 320) (⟨1152 + k.val, by omega⟩ : Fin 2304)) := by
  unfold k0_pay1 k0_pay8
  refine (shapeCast_ab_1ab_apply _ _ (0 : Fin 1) t k).trans ?_
  refine (extractStridedSlice_apply ![0, 0] _ _ (ix2 t k) (ix2 (⟨t.val, by omega⟩ : Fin 320) (⟨k.val, by omega⟩ : Fin 1152)) ?_).trans ?_
  · intro a
    match a with
    | ⟨0, _⟩ => show t.val = 0 + t.val; omega
    | ⟨1, _⟩ => show k.val = 0 + k.val; omega
  refine extractStridedSlice_apply ![0, 1152] _ _ _ (ix2 (⟨t.val, by omega⟩ : Fin 320) (⟨1152 + k.val, by omega⟩ : Fin 2304)) ?_
  intro a
  match a with
  | ⟨0, _⟩ => show t.val = 0 + t.val; omega
  | ⟨1, _⟩ => show 1152 + k.val = 1152 + k.val; rfl

end Cert.Stft.Body

end
-- ==== Proof.OutBlock.lean ====
/-
  What the body leaves in its two output blocks, at one entry.

  The body loads the whole 1 × 328 × 512 chunk block and, for shift i < 4, rows 512·i .. 512·i + 511 of the two
  2048 × 2304 weight arrays.  With real chunks and a zero low-part array, entry (0, t, k) of the first output block is

      Σ_{i < 4} Σ_{j < 512} chunk(t + i, j) · high(512·i + j, k)

  and of the second the same with column 1152 + k.
-/
import proofs.«149669_j21380347199929_2_alg».proof.Proof.Gen.KernelIdeal.Frame
import proofs.«149669_j21380347199929_2_alg».proof.Proof.Payload

noncomputable section

namespace Cert.Stft.Body

open Idealize.ShloMosaic Idealize.ShloMosaic.ValueIdx Cert.KernelIdeal Cert.KernelIdeal.Gen Cert.Stft

theorem hz3 : (![0, 0, 0] : Fin 3 → Nat) = fun _ => 0 := funext fun a => by fin_cases a <;> rfl

/-- Rows o .. o + 511 of a weight array, loaded as a 512 × 2304 block: entry (j, q) is the array's (o + j, q). -/
theorem wblock_at (x : Vec Ideal S2048x2304 .bf16) (o : Nat)
    (inb : ∀ a, (![o, 0] : Fin 2 → Nat) a + S512x2304.size a ≤ S2048x2304.size a) (ho : o + 512 ≤ 2048)
    (j : Fin 512) (q : Fin 2304) :
    View.ld x (Rect.unit (s := S2048x2304) ![o, 0] S512x2304.size inb) (ix2 j q) = x (ix2 (⟨o + j.val, by omega⟩ : Fin 2048) q) := by
  show x ((Rect.unit (s := S2048x2304) ![o, 0] S512x2304.size inb).emb (ix2 j q)) = _
  refine congrArg x (funext fun a => Fin.ext ?_)
  match a with
  | ⟨0, _⟩ => show o + 1 * j.val = o + j.val; omega
  | ⟨1, _⟩ => show 0 + 1 * q.val = q.val; omega

/-- The four block sums at accumulator column q, with the weight blocks read as rows of the whole array. -/
theorem acc_blocks (x0 : Vec Ideal S1x328x512 .f32) (hx0 : AllReal x0) (x1 x2 : Vec Ideal S2048x2304 .bf16)
    (hx2 : ∀ i, x2 i = (0 : EReal)) (r : Fin 320) (q : Fin 2304) :
    k0_pay6 (k0_pay2 x0) (k0_pay3 x0 (View.ld x1 r0_1) (View.ld x2 r0_1) (View.ld x1 r0_2) (View.ld x2 r0_2)) (k0_pay4 x0) (k0_pay5 x0)
        (View.ld x1 r0_3) (View.ld x2 r0_3) (View.ld x1 r0_4) (View.ld x2 r0_4) (ix2 r q)
      = (∑ j : Fin 512, x0 (ix3 (0 : Fin 1) (⟨r.val + 0, by omega⟩ : Fin 328) j) * x1 (ix2 (⟨0 + j.val, by omega⟩ : Fin 2048) q))
        + (∑ j : Fin 512, x0 (ix3 (0 : Fin 1) (⟨r.val + 1, by omega⟩ : Fin 328) j) * x1 (ix2 (⟨512 + j.val, by omega⟩ : Fin 2048) q))
        + (∑ j : Fin 512, x0 (ix3 (0 : Fin 1) (⟨r.val + 2, by omega⟩ : Fin 328) j) * x1 (ix2 (⟨1024 + j.val, by omega⟩ : Fin 2048) q))
        + (∑ j : Fin 512, x0 (ix3 (0 : Fin 1) (⟨r.val + 3, by omega⟩ : Fin 328) j) * x1 (ix2 (⟨1536 + j.val, by omega⟩ : Fin 2048) q)) := by
  refine (acc_at x0 hx0 (View.ld x1 r0_1) (View.ld x2 r0_1) (View.ld x1 r0_2) (View.ld x2 r0_2) (View.ld x1 r0_3) (View.ld x2 r0_3)
    (View.ld x1 r0_4) (View.ld x2 r0_4) (fun _ => hx2 _) (fun _ => hx2 _) (fun _ => hx2 _) (fun _ => hx2 _) r q).trans ?_
  refine congrArg₂ (· + ·) (congrArg₂ (· + ·) (congrArg₂ (· + ·) ?_ ?_) ?_) ?_
  · exact Finset.sum_congr rfl fun j _ => congrArg (_ * ·) (wblock_at x1 0 _ (by omega) j q)
  · exact Finset.sum_congr rfl fun j _ => congrArg (_ * ·) (wblock_at x1 512 _ (by omega) j q)
  · exact Finset.sum_congr rfl fun j _ => congrArg (_ * ·) (wblock_at x1 1024 _ (by omega) j q)
  · exact Finset.sum_congr rfl fun j _ => congrArg (_ * ·) (wblock_at x1 1536 _ (by omega) j q)

/-- The first output block at (0, t, k). -/
theorem out_re (x0 : Vec Ideal S1x328x512 .f32) (hx0 : AllReal x0) (x1 x2 : Vec Ideal S2048x2304 .bf16)
    (hx2 : ∀ i, x2 i = (0 : EReal)) (t : Fin 313) (k : Fin 1025) :
    out0_3 x0 x1 x2 (ix3 (0 : Fin 1) t k)
      = (∑ j : Fin 512, x0 (ix3 (0 : Fin 1) (⟨t.val + 0, by omega⟩ : Fin 328) j) * x1 (ix2 (⟨0 + j.val, by omega⟩ : Fin 2048) (⟨k.val, by omega⟩ : Fin 2304)))
        + (∑ j : Fin 512, x0 (ix3 (0 : Fin 1) (⟨t.val + 1, by omega⟩ : Fin 328) j) * x1 (ix2 (⟨512 + j.val, by omega⟩ : Fin 2048) (⟨k.val, by omega⟩ : Fin 2304)))
        + (∑ j : Fin 512, x0 (ix3 (0 : Fin 1) (⟨t.val + 2, by omega⟩ : Fin 328) j) * x1 (ix2 (⟨1024 + j.val, by omega⟩ : Fin 2048) (⟨k.val, by omega⟩ : Fin 2304)))
        + (∑ j : Fin 512, x0 (ix3 (0 : Fin 1) (⟨t.val + 3, by omega⟩ : Fin 328) j) * x1 (ix2 (⟨1536 + j.val, by omega⟩ : Fin 2048) (⟨k.val, by omega⟩ : Fin 2304))) := by
  unfold out0_3
  rw [View.canon_unit_zero hz3]
  simp only [View.ld_unit_zero (S := S1x328x512) hz3]
  refine (out_re_at _ _ _ _ _ _ _ _ t k).trans ?_
  exact acc_blocks x0 hx0 x1 x2 hx2 (⟨t.val, by omega⟩ : Fin 320) (⟨k.val, by omega⟩ : Fin 2304)

/-- The second output block at (0, t, k). -/
theorem out_im (x0 : Vec Ideal S1x328x512 .f32) (hx0 : AllReal x0) (x1 x2 : Vec Ideal S2048x2304 .bf16)
    (hx2 : ∀ i, x2 i = (0 : EReal)) (t : Fin 313) (k : Fin 1025) :
    out0_4 x0 x1 x2 (ix3 (0 : Fin 1) t k)
      = (∑ j : Fin 512, x0 (ix3 (0 : Fin 1) (⟨t.val + 0, by omega⟩ : Fin 328) j) * x1 (ix2 (⟨0 + j.val, by omega⟩ : Fin 2048) (⟨1152 + k.val, by omega⟩ : Fin 2304)))
        + (∑ j : Fin 512, x0 (ix3 (0 : Fin 1) (⟨t.val + 1, by omega⟩ : Fin 328) j) * x1 (ix2 (⟨512 + j.val, by omega⟩ : Fin 2048) (⟨1152 + k.val, by omega⟩ : Fin 2304)))
        + (∑ j : Fin 512, x0 (ix3 (0 : Fin 1) (⟨t.val + 2, by omega⟩ : Fin 328) j) * x1 (ix2 (⟨1024 + j.val, by omega⟩ : Fin 2048) (⟨1152 + k.val, by omega⟩ : Fin 2304)))
        + (∑ j : Fin 512, x0 (ix3 (0 : Fin 1) (⟨t.val + 3, by omega⟩ : Fin 328) j) * x1 (ix2 (⟨1536 + j.val, by omega⟩ : Fin 2048) (⟨1152 + k.val, by omega⟩ : Fin 2304))) := by
  unfold out0_4
  rw [View.canon_unit_zero hz3]
  simp only [View.ld_unit_zero (S := S1x328x512) hz3]
  refine (out_im_at _ _ _ _ _ _ _ _ t k).trans ?_
  exact acc_blocks x0 hx0 x1 x2 hx2 (⟨t.val, by omega⟩ : Fin 320) (⟨1152 + k.val, by omega⟩ : Fin 2304)

end Cert.Stft.Body

end
-- ==== Proof.Blocks.lean ====
/-
  From the blocks to the two result arrays of the region.

  Grid point t (t < 64) holds chunk block t of the 64 × 328 × 512 chunk array and the whole of each weight array, and
  writes block t of each 64 × 313 × 1025 result.  With chunk(bc, r, j) = padded(bc / 2, bc % 2, 512·r + j) and
  high(n, k) = W(k, n), the four block sums of the body are the four 512-tap blocks of frame t' of signal bc:
  (t' + i)·512 + j = t'·512 + (512·i + j).  So every block is a block of ONE function of the array index, the
  transform of signal bc / 2, bc % 2 at (t', k), and the 64 blocks cover the array.
-/
import proofs.«149669_j21380347199929_2_alg».proof.Proof.OutBlock
import Idealize.ShloMosaic.Lib.Pipeline.Value

noncomputable section

open Idealize.ShloMosaic Idealize.ShloMosaic.TcCoe Idealize.SL.Sem
open Idealize.ShloMosaic.Pipeline (Dat)

namespace Cert.Stft.Blocks

open Idealize.ShloMosaic.ValueIdx Cert.KernelIdeal Cert.KernelIdeal.Gen Cert.Stft Cert.Stft.Body

variable (m : (ℓ : Loc nD τ sig) → Buf (Elt Ideal) ℓ) (c : Dev nD)

/-- The transform of the 64 signals, as the region's result arrays hold it: signal bc is (bc / 2, bc % 2). -/
def G (xp : SPad.Idx → EReal) (w : SWt.Idx → EReal) : S64x313x1025.Idx → EReal :=
  fun i => dftAt xp w (⟨(i 0).val / 2, by have h : (i 0).val < 64 := (i 0).isLt; omega⟩ : Fin 32) (⟨(i 0).val % 2, by omega⟩ : Fin 2) (i 1) (i 2)

theorem G_ix3 (xp : SPad.Idx → EReal) (w : SWt.Idx → EReal) (bc : Fin 64) (t : Fin 313) (k : Fin 1025) :
    G xp w (ix3 bc t k) = dftAt xp w (⟨bc.val / 2, by omega⟩ : Fin 32) (⟨bc.val % 2, by omega⟩ : Fin 2) t k := rfl

/-- The printed index maps over the grid: the chunk window and the two result windows are at block t on axis 0, the
    weight windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 64 := by have h : cfg0.N = 64 := N_0; have := t.isLt; omega

/-- Two functions on a 1 × 313 × 1025 block agree when they agree at every (0, t', k). -/
theorem blk_ext (f g : S1x313x1025.Idx → EReal) (h : ∀ (t' : Fin 313) (k : Fin 1025), f (ix3 (0 : Fin 1) t' k) = g (ix3 (0 : Fin 1) t' k)) :
    f = g := by
  funext y
  obtain ⟨u, t', k, rfl⟩ : ∃ (u : Fin 1) (t' : Fin 313) (k : Fin 1025), y = ix3 u t' k := ⟨y 0, y 1, y 2, eq_ix3 y⟩
  obtain rfl : u = 0 := Subsingleton.elim _ _
  exact h t' k

/-- The chunk window's block at point t is chunk block t. -/
theorem iblk0_at (t : Fin cfg0.N) (r : Fin 328) (j : Fin 512) :
    (iblk m c 0 t : Vec Ideal S1x328x512 .f32) (ix3 (0 : Fin 1) r j)
      = (V m c main_v3 : S64x328x512.Idx → EReal) (ix3 (⟨t.val, t_lt t⟩ : Fin 64) r j) := by
  obtain ⟨e0, e1, e2, -⟩ := idx_facts t
  show V m c main_v3 (((cfg0.win 0).blk t).view.emb (ix3 (0 : Fin 1) r j)) = V m c main_v3 _
  refine congrArg _ (funext fun a => Fin.ext ?_)
  match a with
  | ⟨0, _⟩ => show win0_0.index t (0 : Fin 3) * 1 + 1 * 0 = t.val; omega
  | ⟨1, _⟩ => show win0_0.index t (1 : Fin 3) * 328 + 1 * r.val = r.val; omega
  | ⟨2, _⟩ => show win0_0.index t (2 : Fin 3) * 512 + 1 * j.val = j.val; omega

/-- The high-part window's block at every point is the whole array. -/
theorem iblk1_at (t : Fin cfg0.N) (n : Fin 2048) (q : Fin 2304) :
    (iblk m c 1 t : Vec Ideal S2048x2304 .bf16) (ix2 n q) = (V m c main_v9 : S2048x2304.Idx → EReal) (ix2 n q) := by
  obtain ⟨-, -, -, e0, e1, -⟩ := idx_facts t
  show V m c main_v9 (((cfg0.win 1).blk t).view.emb (ix2 n q)) = V m c main_v9 _
  refine congrArg _ (funext fun a => Fin.ext ?_)
  match a with
  | ⟨0, _⟩ => show win0_1.index t (0 : Fin 2) * 2048 + 1 * n.val = n.val; omega
  | ⟨1, _⟩ => show win0_1.index t (1 : Fin 2) * 2304 + 1 * q.val = q.val; omega

/-- The low-part window's block at every point is an entry of the low-part array. -/
theorem iblk2_at (t : Fin cfg0.N) (y : S2048x2304.Idx) :
    ∃ i : S2048x2304.Idx, (iblk m c 2 t : Vec Ideal S2048x2304 .bf16) y = (V m c main_v12 : S2048x2304.Idx → EReal) i :=
  ⟨_, rfl⟩

/-- The three input blocks at point t, as plain arrays of extended reals. -/
abbrev chunkBlk (t : Fin cfg0.N) : S1x328x512.Idx → EReal := iblk m c 0 t
abbrev hiBlk (t : Fin cfg0.N) : S2048x2304.Idx → EReal := iblk m c 1 t
abbrev loBlk (t : Fin cfg0.N) : S2048x2304.Idx → EReal := iblk m c 2 t

section
variable (xp : SPad.Idx → EReal) (wr wi : SWt.Idx → EReal)
  (hch : ∀ (bc : Fin 64) (j : Fin 328) (k : Fin 512) (h : j.val * 512 + k.val < 162048),
    (V m c main_v3 : S64x328x512.Idx → EReal) (ix3 bc j k)
      = xp (ix3 (⟨bc.val / 2, by omega⟩ : Fin 32) (⟨bc.val % 2, by omega⟩ : Fin 2) (⟨j.val * 512 + k.val, h⟩ : Fin 162048)))
  (hcr : AllReal (V m c main_v3 : S64x328x512.Idx → EReal))
  (hre : ∀ (n : Fin 2048) (k : Fin 1025), (V m c main_v9 : S2048x2304.Idx → EReal) (ix2 n (⟨k.val, by omega⟩ : Fin 2304)) = wr (ix2 k n))
  (him : ∀ (n : Fin 2048) (k : Fin 1025), (V m c main_v9 : S2048x2304.Idx → EReal) (ix2 n (⟨1152 + k.val, by omega⟩ : Fin 2304)) = wi (ix2 k n))
  (hlo : ∀ i : S2048x2304.Idx, (V m c main_v12 : S2048x2304.Idx → EReal) i = (0 : EReal))

include hcr in
theorem iblk0_real (t : Fin cfg0.N) : AllReal (chunkBlk m c t) := fun y => hcr _

include hlo in
theorem iblk2_zero (t : Fin cfg0.N) (y : S2048x2304.Idx) : loBlk m c t y = (0 : EReal) := hlo _

include hch in
/-- One 512-tap block of a frame: chunk (t' + i, j) of signal bc is padded sample t'·512 + (j + 512·i). -/
theorem tap_term (w : SWt.Idx → EReal) (t : Fin cfg0.N) (t' : Fin 313) (k : Fin 1025) (q : Fin 2304) (i : Fin 4)
    (hq : ∀ n : Fin 2048, (V m c main_v9 : S2048x2304.Idx → EReal) (ix2 n q) = w (ix2 k n)) (j : Fin 512) :
    chunkBlk m c t (ix3 (0 : Fin 1) (⟨t'.val + i.val, by omega⟩ : Fin 328) j)
        * hiBlk m c t (ix2 (⟨512 * i.val + j.val, by omega⟩ : Fin 2048) q)
      = xp (ix3 (⟨t.val / 2, by have := t_lt t; omega⟩ : Fin 32) (⟨t.val % 2, by omega⟩ : Fin 2)
            (⟨t'.val * 512 + (j.val + 512 * i.val), by omega⟩ : Fin 162048))
          * w (ix2 k (⟨j.val + 512 * i.val, by omega⟩ : Fin 2048)) := by
  unfold chunkBlk hiBlk
  rw [iblk0_at m c t, iblk1_at m c t, hch _ _ _ (by show (t'.val + i.val) * 512 + j.val < 162048; omega), hq]
  refine congrArg₂ (· * ·) (congrArg xp (funext fun a => Fin.ext ?_)) (congrArg w (funext fun a => Fin.ext ?_))
  · match a with
    | ⟨0, _⟩ => rfl
    | ⟨1, _⟩ => rfl
    | ⟨2, _⟩ => show (t'.val + i.val) * 512 + j.val = t'.val * 512 + (j.val + 512 * i.val); omega
  · match a with
    | ⟨0, _⟩ => rfl
    | ⟨1, _⟩ => show 512 * i.val + j.val = j.val + 512 * i.val; omega

include hch hcr hlo in
/-- What point t leaves in an output block whose column q of the accumulator holds weight row k of w: the transform
    of signal t at (t', k), as four 512-tap block sums. -/
theorem four_blocks (w : SWt.Idx → EReal) (t : Fin cfg0.N) (t' : Fin 313) (k : Fin 1025) (q : Fin 2304)
    (hq : ∀ n : Fin 2048, (V m c main_v9 : S2048x2304.Idx → EReal) (ix2 n q) = w (ix2 k n)) :
    (∑ j : Fin 512, chunkBlk m c t (ix3 (0 : Fin 1) (⟨t'.val + 0, by omega⟩ : Fin 328) j) * hiBlk m c t (ix2 (⟨0 + j.val, by omega⟩ : Fin 2048) q))
      + (∑ j : Fin 512, chunkBlk m c t (ix3 (0 : Fin 1) (⟨t'.val + 1, by omega⟩ : Fin 328) j) * hiBlk m c t (ix2 (⟨512 + j.val, by omega⟩ : Fin 2048) q))
      + (∑ j : Fin 512, chunkBlk m c t (ix3 (0 : Fin 1) (⟨t'.val + 2, by omega⟩ : Fin 328) j) * hiBlk m c t (ix2 (⟨1024 + j.val, by omega⟩ : Fin 2048) q))
      + (∑ j : Fin 512, chunkBlk m c t (ix3 (0 : Fin 1) (⟨t'.val + 3, by omega⟩ : Fin 328) j) * hiBlk m c t (ix2 (⟨1536 + j.val, by omega⟩ : Fin 2048) q))
      = dftAt xp w (⟨t.val / 2, by have := t_lt t; omega⟩ : Fin 32) (⟨t.val % 2, by omega⟩ : Fin 2) t' k := by
  unfold dftAt
  rw [sum_taps, Fin.sum_univ_four]
  refine congrArg₂ (· + ·) (congrArg₂ (· + ·) (congrArg₂ (· + ·) ?_ ?_) ?_) ?_
  · exact Finset.sum_congr rfl fun j _ => tap_term m c xp hch w t t' k q 0 hq j
  · exact Finset.sum_congr rfl fun j _ => tap_term m c xp hch w t t' k q 1 hq j
  · exact Finset.sum_congr rfl fun j _ => tap_term m c xp hch w t t' k q 2 hq j
  · exact Finset.sum_congr rfl fun j _ => tap_term m c xp hch w t t' k q 3 hq j

/-- Element (0, t', k) of result block t is element (t, t', k) of the result array. -/
theorem emb3 (t : Fin cfg0.N) (t' : Fin 313) (k : Fin 1025) :
    ((cfg0.win 3).blk t).view.emb (ix3 (0 : Fin 1) t' k) = ix3 (⟨t.val, t_lt t⟩ : Fin 64) t' k := by
  obtain ⟨-, -, -, -, -, -, -, e0, e1, e2, -⟩ := idx_facts t
  funext a; apply Fin.ext
  match a with
  | ⟨0, _⟩ => show win0_3.index t (0 : Fin 3) * 1 + 1 * 0 = t.val; omega
  | ⟨1, _⟩ => show win0_3.index t (1 : Fin 3) * 313 + 1 * t'.val = t'.val; omega
  | ⟨2, _⟩ => show win0_3.index t (2 : Fin 3) * 1025 + 1 * k.val = k.val; omega

theorem emb4 (t : Fin cfg0.N) (t' : Fin 313) (k : Fin 1025) :
    ((cfg0.win 4).blk t).view.emb (ix3 (0 : Fin 1) t' k) = ix3 (⟨t.val, t_lt t⟩ : Fin 64) t' k := by
  obtain ⟨-, -, -, -, -, -, -, -, -, -, e0, e1, e2⟩ := idx_facts t
  funext a; apply Fin.ext
  match a with
  | ⟨0, _⟩ => show win0_4.index t (0 : Fin 3) * 1 + 1 * 0 = t.val; omega
  | ⟨1, _⟩ => show win0_4.index t (1 : Fin 3) * 313 + 1 * t'.val = t'.val; omega
  | ⟨2, _⟩ => show win0_4.index t (2 : Fin 3) * 1025 + 1 * k.val = k.val; omega

include hch hcr hre hlo in
/-- What point t writes back to the first result is block t of the transform against the first weight matrix. -/
theorem flushed3_eq (t : Fin cfg0.N) :
    (dats m 0 c).flushed 3 t = ((cfg0.win 3).blk t).view.read (Elt Ideal) (G xp wr) := by
  show (cfg0.win 3).cut (grid0.coords t) ((dats m 0 c).after 3 t) = _
  rw [after0_3]
  refine blk_ext _ _ fun t' k => ?_
  refine (out_re (chunkBlk m c t) (iblk0_real m c hcr t) (hiBlk m c t) (loBlk m c t) (iblk2_zero m c hlo t) t' k).trans ?_
  show _ = G xp wr (((cfg0.win 3).blk t).view.emb (ix3 (0 : Fin 1) t' k))
  rw [emb3 t t' k, G_ix3]
  exact four_blocks m c xp hch hcr hlo wr t t' k _ (fun n => hre n k)

include hch hcr him hlo in
/-- What point t writes back to the second result is block t of the transform against the second weight matrix. -/
theorem flushed4_eq (t : Fin cfg0.N) :
    (dats m 0 c).flushed 4 t = ((cfg0.win 4).blk t).view.read (Elt Ideal) (G xp wi) := by
  show (cfg0.win 4).cut (grid0.coords t) ((dats m 0 c).after 4 t) = _
  rw [after0_4]
  refine blk_ext _ _ fun t' k => ?_
  refine (out_im (chunkBlk m c t) (iblk0_real m c hcr t) (hiBlk m c t) (loBlk m c t) (iblk2_zero m c hlo t) t' k).trans ?_
  show _ = G xp wi (((cfg0.win 4).blk t).view.emb (ix3 (0 : Fin 1) t' k))
  rw [emb4 t t' k, G_ix3]
  exact four_blocks m c xp hch hcr hlo wi t t' k _ (fun n => him n k)

/-- An index of a result array is in point t's block iff each coordinate is in the block's range on its axis. -/
theorem mem_blk3 (t : Fin cfg0.N) (i : S64x313x1025.Idx) :
    i ∈ ((cfg0.win 3).blk t).view.set ↔ ∀ a : Fin 3, win0_3.index t a * S1x313x1025.size a ≤ (i a).val ∧ (i a).val < win0_3.index t a * S1x313x1025.size a + S1x313x1025.size a := by
  show i ∈ ((View.whole main_v13_0).slice (win0_3.rect t)).set ↔ _
  rw [View.set_slice_whole, Rect.mem_set_unit]
  exact Iff.rfl

theorem mem_blk4 (t : Fin cfg0.N) (i : S64x313x1025.Idx) :
    i ∈ ((cfg0.win 4).blk t).view.set ↔ ∀ a : Fin 3, win0_4.index t a * S1x313x1025.size a ≤ (i a).val ∧ (i a).val < win0_4.index t a * S1x313x1025.size a + S1x313x1025.size a := by
  show i ∈ ((View.whole main_v13_1).slice (win0_4.rect t)).set ↔ _
  rw [View.set_slice_whole, Rect.mem_set_unit]
  exact Iff.rfl

/-- Index (bc, t', k) is in the block of point bc. -/
theorem cover3 (i : S64x313x1025.Idx) : ∃ t : Fin cfg0.N, (cfg0.win 3).flush t = true ∧ i ∈ ((cfg0.win 3).blk t).view.set := by
  have hN : cfg0.N = 64 := N_0
  have h0 : (i 0).val < 64 := (i 0).isLt
  have h1 : (i 1).val < 313 := (i 1).isLt
  have h2 : (i 2).val < 1025 := (i 2).isLt
  refine ⟨⟨(i 0).val, by omega⟩, flush0_3 _, ?_⟩
  rw [mem_blk3]
  obtain ⟨-, -, -, -, -, -, -, e0, e1, e2, -⟩ := idx_facts (⟨(i 0).val, by omega⟩ : Fin cfg0.N)
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 313 ≤ (i 1).val ∧ (i 1).val < win0_3.index _ (1 : Fin 3) * 313 + 313; rw [e1]; omega
  | ⟨2, _⟩ => show win0_3.index _ (2 : Fin 3) * 1025 ≤ (i 2).val ∧ (i 2).val < win0_3.index _ (2 : Fin 3) * 1025 + 1025; rw [e2]; omega

theorem cover4 (i : S64x313x1025.Idx) : ∃ t : Fin cfg0.N, (cfg0.win 4).flush t = true ∧ i ∈ ((cfg0.win 4).blk t).view.set := by
  have hN : cfg0.N = 64 := N_0
  have h0 : (i 0).val < 64 := (i 0).isLt
  have h1 : (i 1).val < 313 := (i 1).isLt
  have h2 : (i 2).val < 1025 := (i 2).isLt
  refine ⟨⟨(i 0).val, by omega⟩, flush0_4 _, ?_⟩
  rw [mem_blk4]
  obtain ⟨-, -, -, -, -, -, -, -, -, -, e0, e1, e2⟩ := idx_facts (⟨(i 0).val, by omega⟩ : Fin cfg0.N)
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 313 ≤ (i 1).val ∧ (i 1).val < win0_4.index _ (1 : Fin 3) * 313 + 313; rw [e1]; omega
  | ⟨2, _⟩ => show win0_4.index _ (2 : Fin 3) * 1025 ≤ (i 2).val ∧ (i 2).val < win0_4.index _ (2 : Fin 3) * 1025 + 1025; rw [e2]; omega

include hch hcr hre hlo in
/-- The first result array after the region. -/
theorem final3 : (dats m 0 c).arrAt 3 cfg0.N = G xp wr :=
  (dats m 0 c).arrAt_eq_of_cover 3 (G xp wr) (fun t _ => flushed3_eq m c xp wr hch hcr hre hlo t) (cover3)

include hch hcr him hlo in
/-- The second result array after the region. -/
theorem final4 : (dats m 0 c).arrAt 4 cfg0.N = G xp wi :=
  (dats m 0 c).arrAt_eq_of_cover 4 (G xp wi) (fun t _ => flushed4_eq m c xp wi hch hcr him hlo t) (cover4)

end

end Cert.Stft.Blocks

end
-- ==== Proof.KernelRun.lean ====
/-
  The kernel program's run, read: after the region the two 64 × 313 × 1025 results are reshaped to
  32 × 2 × 313 × 1025, signal bc = 2·b + c going to (b, c); a reshape keeps row-major positions, so entry (b, c, t, k)
  of each final result is the transform of signal (b, c) at (t, k).
-/
import proofs.«149669_j21380347199929_2_alg».proof.Proof.Blocks
import Idealize.ShloMosaic.Lib.StableHlo.Run

noncomputable section

open Idealize.ShloMosaic Idealize.ShloMosaic.TcCoe Idealize.SL.Sem
open Idealize.ShloMosaic.Pipeline (Dat)

namespace Cert.Stft.KRun

open Idealize.ShloMosaic.ValueIdx Cert.KernelIdeal Cert.KernelIdeal.Gen Cert.Stft Cert.Stft.Blocks

/-- The 64 signals regrouped as 32 × 2. -/
theorem reshape_G (xp : SPad.Idx → EReal) (w : SWt.Idx → EReal) (h : S64x313x1025.ShapeCasts S32x2x313x1025) :
    shapeCast S32x2x313x1025 (G xp w) h = dft xp w := by
  funext i
  obtain ⟨b, c, t, k, rfl⟩ : ∃ (b : Fin 32) (c : Fin 2) (t : Fin 313) (k : Fin 1025), i = ix4 b c t k := ⟨i 0, i 1, i 2, i 3, eq_ix4 i⟩
  refine (shapeCast_apply (G xp w) h (ix4 b c t k) (ix3 (⟨b.val * 2 + c.val, by omega⟩ : Fin 64) t k) ?_).trans ?_
  · rw [Shape.rowMajor_val_three, Shape.rowMajor_val_four]
    show ((b.val * 2 + c.val) * 313 + t.val) * 1025 + k.val = ((b.val * 2 + c.val) * 313 + t.val) * 1025 + k.val
    rfl
  rw [G_ix3, dft_ix4]
  have e0 : (⟨(b.val * 2 + c.val) / 2, by omega⟩ : Fin 32) = b := Fin.ext (by show (b.val * 2 + c.val) / 2 = b.val; omega)
  have e1 : (⟨(b.val * 2 + c.val) % 2, by omega⟩ : Fin 2) = c := Fin.ext (by show (b.val * 2 + c.val) % 2 = c.val; omega)
  rw [e0, e1]

variable (m : (ℓ : Loc nD τ sig) → Buf (Elt Ideal) ℓ) (ρ : Dev nD → PrngReg)

/-- The first final result: the reshape of the region's first result array. -/
theorem tail_re (c : Dev nD) (xp : SPad.Idx → EReal) (w : SWt.Idx → EReal) (hfin : (dats m 0 c).arrAt 3 cfg0.N = G xp w) :
    Pipeline.afterTail₀ cfgs (dats m) 0 (V0 m) [hostOps1] c main_v14 = dft xp w := by
  unfold Pipeline.afterTail₀
  show StableHlo.after hostOps1 _ (Proc.devRef .tc main_v14) = _
  after_results
  show shapeCast S32x2x313x1025 (Pipeline.withArrays spec0 c (V0 m c) (fun w => (dats m 0 c).arrAt w cfg0.N) (Proc.devRef .tc (Pipeline.arrRef spec0 3)))
    shapeCasts_S64x313x1025_S32x2x313x1025 = _
  rw [Pipeline.withArrays_arr spec0 launch0.win.arr_inj c _ _ 3, hfin]
  exact reshape_G xp w _

/-- The second final result likewise. -/
theorem tail_im (c : Dev nD) (xp : SPad.Idx → EReal) (w : SWt.Idx → EReal) (hfin : (dats m 0 c).arrAt 4 cfg0.N = G xp w) :
    Pipeline.afterTail₀ cfgs (dats m) 0 (V0 m) [hostOps1] c main_v15 = dft xp w := by
  unfold Pipeline.afterTail₀
  show StableHlo.after hostOps1 _ (Proc.devRef .tc main_v15) = _
  after_results
  show shapeCast S32x2x313x1025 (Pipeline.withArrays spec0 c (V0 m c) (fun w => (dats m 0 c).arrAt w cfg0.N) (Proc.devRef .tc (Pipeline.arrRef spec0 4)))
    shapeCasts_S64x313x1025_S32x2x313x1025 = _
  rw [Pipeline.withArrays_arr spec0 launch0.win.arr_inj c _ _ 4, hfin]
  exact reshape_G xp w _

/-- The run of the kernel program with both results named, given what the region finds in its three input arrays:
    the chunk array holds the padded signals' chunks and real numbers, the high-part weights hold the two weight
    matrices transposed side by side, the low-part weights are zero. -/
theorem run (xp : Dev nD → SPad.Idx → EReal) (wr wi : Dev nD → SWt.Idx → EReal)
    (hch : ∀ (c : Dev nD) (bc : Fin 64) (j : Fin 328) (k : Fin 512) (h : j.val * 512 + k.val < 162048),
      (V m c main_v3 : S64x328x512.Idx → EReal) (ix3 bc j k)
        = xp c (ix3 (⟨bc.val / 2, by omega⟩ : Fin 32) (⟨bc.val % 2, by omega⟩ : Fin 2) (⟨j.val * 512 + k.val, h⟩ : Fin 162048)))
    (hcr : ∀ c : Dev nD, AllReal (V m c main_v3 : S64x328x512.Idx → EReal))
    (hre : ∀ (c : Dev nD) (n : Fin 2048) (k : Fin 1025), (V m c main_v9 : S2048x2304.Idx → EReal) (ix2 n (⟨k.val, by omega⟩ : Fin 2304)) = wr c (ix2 k n))
    (him : ∀ (c : Dev nD) (n : Fin 2048) (k : Fin 1025), (V m c main_v9 : S2048x2304.Idx → EReal) (ix2 n (⟨1152 + k.val, by omega⟩ : Fin 2304)) = wi c (ix2 k n))
    (hlo : ∀ (c : Dev nD) (i : S2048x2304.Idx), (V m c main_v12 : S2048x2304.Idx → EReal) i = (0 : EReal)) :
    θ_run defs (onTc (τ := τ) (main (F := Ideal))) ⟨m, fun _ => 0, ρ⟩ (fun r => ∀ c : Dev nD,
      r.2.mem ((c.tc : Thread nD τ).loc main_v14) = dft (xp c) (wr c)
      ∧ r.2.mem ((c.tc : Thread nD τ).loc main_v15) = dft (xp c) (wi c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v14 (Pipeline.mem_restRefs_of main_v14 (by decide) (by decide))).trans
        (tail_re m c (xp c) (wr c) (final3 m c (xp c) (wr c) (hch c) (hcr c) (hre c) (hlo c))),
      ((h c).2 main_v15 (Pipeline.mem_restRefs_of main_v15 (by decide) (by decide))).trans
        (tail_im m c (xp c) (wi c) (final4 m c (xp c) (wi c) (hch c) (hcr c) (him c) (hlo c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Stft.KRun

end
-- ==== Proof.HostOpsAt.lean ====
/-
  The host operations in front of the kernel call, read at an index, over arbitrary arrays.

  Signal side: the padded signal (32 × 2 × 162048) is viewed as 64 rows of 162048 samples, each row is extended with
  5888 copies of a pad value to 167936 = 328 · 512 samples, and the row is viewed as 328 chunks of 512.  Entry
  (bc, j, k) with 512·j + k < 162048 is therefore padded sample 512·j + k of batch bc / 2, channel bc % 2.

  Weight side: each 1025 × 2048 weight matrix is transposed, extended from 1025 to 1152 columns with a pad value, and
  the two results are laid side by side: column k < 1025 of row n holds the first matrix at (k, n), column 1152 + k
  holds the second matrix at (k, n).

  Every entry of a reshape, a transpose, a pad or a concatenation is an entry of an operand (or the pad value), so
  any property of all the operands' entries passes to the result.
-/
import Idealize.ShloMosaic.Lib.Pipeline.Value
import Idealize.ShloMosaic.Lib.KernelVsHost
import Idealize.ShloMosaic.Lib.ValueIdx
import Idealize.ShloMosaic.PureOps.Ideal
import proofs.«149669_j21380347199929_2_alg».proof.Proof.Spec

noncomputable section

namespace Cert.Stft.Host

open Cert.Stft Idealize.ShloMosaic Idealize.ShloMosaic.ValueIdx

abbrev T0 : Shape := ⟨0, ![]⟩
abbrev T64x162048 : Shape := ⟨2, ![64, 162048]⟩
abbrev T64x167936 : Shape := ⟨2, ![64, 167936]⟩
abbrev T64x328x512 : Shape := ⟨3, ![64, 328, 512]⟩
abbrev T2048x1025 : Shape := ⟨2, ![2048, 1025]⟩
abbrev T2048x1152 : Shape := ⟨2, ![2048, 1152]⟩
abbrev T2048x2304 : Shape := ⟨2, ![2048, 2304]⟩

/-! ## A property of every operand entry is a property of every result entry -/

theorem shapeCast_mem {α : Type} {s t : Shape} (P : α → Prop) (x : s.Idx → α) (h : s.ShapeCasts t)
    (hx : ∀ k, P (x k)) (j : t.Idx) : P (shapeCast t x h j) := by
  unfold shapeCast; exact hx _

theorem transpose_mem {α : Type} {s t : Shape} (P : α → Prop) (perm : List (Fin s.rank)) (x : s.Idx → α)
    (h : s.Transposes perm t) (hx : ∀ k, P (x k)) (j : t.Idx) : P (transpose t perm x h j) := by
  unfold transpose; exact hx _

theorem pad_mem {α : Type} {s t u : Shape} (P : α → Prop) (lo hi interior : Fin s.rank → Nat) (x : s.Idx → α)
    (v : u.Idx → α) (h : s.Pads lo hi interior t) (hu : 0 < u.numel) (hx : ∀ k, P (x k)) (hv : ∀ k, P (v k))
    (j : t.Idx) : P (pad t lo hi interior x v h hu j) := by
  unfold pad
  split
  · exact hx _
  · exact hv _

/-- The integer 0 converted to a float is the real number 0. -/
theorem zero_real (i : T0.Idx) :
    ∃ r : ℝ, (sitofp (F := Ideal) .f32 (constantI T0 32 0#32) : T0.Idx → EReal) i = (r : EReal) :=
  ⟨((0#32 : BitVec 32).toInt : ℝ), rfl⟩

/-! ## The signal's chunks -/

theorem chunk_apply {α : Type} (xp : SPad.Idx → α) (z : T0.Idx → α)
    (hc1 : SPad.ShapeCasts T64x162048) (hp : T64x162048.Pads (![0, 0] : Fin 2 → Nat) ![0, 5888] ![0, 0] T64x167936)
    (hu : 0 < T0.numel) (hc2 : T64x167936.ShapeCasts T64x328x512)
    (bc : Fin 64) (j : Fin 328) (k : Fin 512) (h : j.val * 512 + k.val < 162048) :
    shapeCast T64x328x512 (pad T64x167936 ![0, 0] ![0, 5888] ![0, 0] (shapeCast T64x162048 xp hc1) z hp hu) hc2 (ix3 bc j k)
      = xp (ix3 (⟨bc.val / 2, by omega⟩ : Fin 32) (⟨bc.val % 2, by omega⟩ : Fin 2) (⟨j.val * 512 + k.val, h⟩ : Fin 162048)) := by
  rw [shapeCast_apply _ hc2 (ix3 bc j k) (ix2 bc (⟨j.val * 512 + k.val, by omega⟩ : Fin 167936))
        (by rw [Shape.rowMajor_val_two, Shape.rowMajor_val_three]; simp; ring)]
  rw [pad_apply_of_inside _ _ _ _ _ hp hu _ (ix2 bc (⟨j.val * 512 + k.val, h⟩ : Fin 162048))
        (by intro a; fin_cases a <;> simp)]
  rw [shapeCast_apply _ hc1 _ (ix3 (⟨bc.val / 2, by omega⟩ : Fin 32) (⟨bc.val % 2, by omega⟩ : Fin 2) (⟨j.val * 512 + k.val, h⟩ : Fin 162048))
        (by rw [Shape.rowMajor_val_two, Shape.rowMajor_val_three]
            show (bc.val / 2 * 2 + bc.val % 2) * 162048 + (j.val * 512 + k.val) = bc.val * 162048 + (j.val * 512 + k.val)
            omega)]

theorem chunk_mem {α : Type} (P : α → Prop) (xp : SPad.Idx → α) (z : T0.Idx → α)
    (hc1 : SPad.ShapeCasts T64x162048) (hp : T64x162048.Pads (![0, 0] : Fin 2 → Nat) ![0, 5888] ![0, 0] T64x167936)
    (hu : 0 < T0.numel) (hc2 : T64x167936.ShapeCasts T64x328x512) (hx : ∀ k, P (xp k)) (hz : ∀ k, P (z k)) (i : T64x328x512.Idx) :
    P (shapeCast T64x328x512 (pad T64x167936 ![0, 0] ![0, 5888] ![0, 0] (shapeCast T64x162048 xp hc1) z hp hu) hc2 i) :=
  shapeCast_mem P _ hc2 (pad_mem P _ _ _ _ z hp hu (shapeCast_mem P xp hc1 hx) hz) i

/-! ## The two weight matrices side by side -/

/-- A weight matrix transposed and extended to 1152 columns, at a column below 1025. -/
theorem wpad_apply {α : Type} (w : SWt.Idx → α) (z : T0.Idx → α) (ht : SWt.Transposes [1, 0] T2048x1025)
    (hp : T2048x1025.Pads (![0, 0] : Fin 2 → Nat) ![0, 127] ![0, 0] T2048x1152) (hu : 0 < T0.numel)
    (n : Fin 2048) (k : Fin 1025) :
    pad T2048x1152 ![0, 0] ![0, 127] ![0, 0] (transpose T2048x1025 [1, 0] w ht) z hp hu (ix2 n (⟨k.val, by omega⟩ : Fin 1152))
      = w (ix2 k n) := by
  rw [pad_apply_of_inside _ _ _ _ _ hp hu _ (ix2 n k) (by intro a; fin_cases a <;> simp)]
  rw [transpose_apply _ _ ht _ (ix2 k n) (by intro b; fin_cases b <;> rfl)]

theorem wpad_mem {α : Type} (P : α → Prop) (w : SWt.Idx → α) (z : T0.Idx → α) (ht : SWt.Transposes [1, 0] T2048x1025)
    (hp : T2048x1025.Pads (![0, 0] : Fin 2 → Nat) ![0, 127] ![0, 0] T2048x1152) (hu : 0 < T0.numel)
    (hw : ∀ k, P (w k)) (hz : ∀ k, P (z k)) (i : T2048x1152.Idx) :
    P (pad T2048x1152 ![0, 0] ![0, 127] ![0, 0] (transpose T2048x1025 [1, 0] w ht) z hp hu i) :=
  pad_mem P _ _ _ _ z hp hu (transpose_mem P _ w ht hw) hz i

theorem wcat_left {α : Type} (a b : T2048x1152.Idx → α)
    (hc : Shape.Concatenates [T2048x1152, T2048x1152] T2048x2304 1) (n : Fin 2048) (k : Fin 1152) :
    concatenate T2048x2304 1 [⟨T2048x1152, a⟩, ⟨T2048x1152, b⟩] hc (ix2 n (⟨k.val, by omega⟩ : Fin 2304)) = a (ix2 n k) :=
  concatenate_pair_apply_left 1 a b hc _ rfl (ix2 n k) (by intro d; fin_cases d <;> rfl)

theorem wcat_right {α : Type} (a b : T2048x1152.Idx → α)
    (hc : Shape.Concatenates [T2048x1152, T2048x1152] T2048x2304 1) (n : Fin 2048) (k : Fin 1152) :
    concatenate T2048x2304 1 [⟨T2048x1152, a⟩, ⟨T2048x1152, b⟩] hc (ix2 n (⟨1152 + k.val, by omega⟩ : Fin 2304)) = b (ix2 n k) :=
  concatenate_pair_apply_right 1 a b hc _ rfl rfl (ix2 n k)
    (by intro d hd; fin_cases d
        · rfl
        · exact absurd rfl hd)
    (by show k.val + 1152 = 1152 + k.val; omega)

theorem wcat_mem {α : Type} (P : α → Prop) (a b : T2048x1152.Idx → α)
    (hc : Shape.Concatenates [T2048x1152, T2048x1152] T2048x2304 1) (ha : ∀ k, P (a k)) (hb : ∀ k, P (b k))
    (i : T2048x2304.Idx) : P (concatenate T2048x2304 1 [⟨T2048x1152, a⟩, ⟨T2048x1152, b⟩] hc i) := by
  refine concatenate_mem P T2048x2304 1 [⟨T2048x1152, a⟩, ⟨T2048x1152, b⟩] hc ?_ i
  intro p hp k
  simp only [List.mem_cons, List.mem_nil_iff, or_false] at hp
  rcases hp with rfl | rfl
  · exact ha k
  · exact hb k

/-- A real number minus itself is 0 in the extended reals. -/
theorem sub_self_of_real (v : EReal) (h : ∃ r : ℝ, v = (r : EReal)) : v - v = 0 := by
  obtain ⟨r, rfl⟩ := h
  rw [← EReal.coe_sub, sub_self, EReal.coe_zero]

end Cert.Stft.Host

end
-- ==== Proof.HostTerms.lean ====
/-
  What the host operations in front of the kernel call leave in the three arrays the call reads, as terms of the
  three argument arrays x (signal), Wr and Wi (weights):

    signal chunks  = reshape (pad (reshape (reflectPad x) to 64 × 162048) with 5888 zeros per row) to 64 × 328 × 512
    weights, high  = narrow (wcat)                 wcat = [pad (transpose Wr) | pad (transpose Wi)], 2048 × 2304
    weights, low   = narrow (wcat − widen (narrow wcat))

  The padded signal is the shared term `reflectPad x`; it is never opened.
-/
import proofs.«149669_j21380347199929_2_alg».proof.Proof.Gen.KernelIdeal.Frame
import proofs.«149669_j21380347199929_2_alg».proof.Proof.Spec

noncomputable section

namespace Cert.Stft.Host

open Cert.KernelIdeal Cert.KernelIdeal.Gen Cert.Stft Idealize.ShloMosaic Idealize.ShloMosaic.ValueIdx
open Idealize.ShloMosaic.TcCoe

variable (m : (ℓ : Loc nD τ sig) → Buf (Elt Ideal) ℓ) (c : Dev nD)

/-- The padded signal is the shared reflect-padded term of the signal argument. -/
theorem v0_eq : (V m c main_v0 : S32x2x162048.Idx → EReal) = reflectPad (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- The signal as the kernel call finds it: the padded signal as 64 rows, each extended with zeros to 167936
    samples, as 328 chunks of 512. -/
theorem v3_eq : (V m c main_v3 : S64x328x512.Idx → EReal) =
    shapeCast S64x328x512
      (pad S64x167936 ![0, 0] ![0, 5888] ![0, 0]
        (shapeCast S64x162048 (reflectPad (m ((c : Thread nD τ).loc main_arg0))) shapeCasts_S32x2x162048_S64x162048)
        (sitofp (F := Ideal) .f32 (constantI S_ 32 0#32)) pads_S64x162048_S64x167936_000_058880 h_S_)
      shapeCasts_S64x167936_S64x328x512 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- The two weight matrices, each transposed and extended with zeros to 1152 columns, side by side. -/
def wcat : S2048x2304.Idx → EReal :=
  concatenate S2048x2304 1
    [⟨S2048x1152, pad S2048x1152 ![0, 0] ![0, 127] ![0, 0]
        (transpose S2048x1025 [1, 0] (m ((c : Thread nD τ).loc main_arg1)) transposes_S1025x2048_S2048x1025_1_0)
        (sitofp (F := Ideal) .f32 (constantI S_ 32 0#32)) pads_S2048x1025_S2048x1152_000_01270 h_S_⟩,
     ⟨S2048x1152, pad S2048x1152 ![0, 0] ![0, 127] ![0, 0]
        (transpose S2048x1025 [1, 0] (m ((c : Thread nD τ).loc main_arg2)) transposes_S1025x2048_S2048x1025_1_0)
        (sitofp (F := Ideal) .f32 (constantI S_ 32 0#32)) pads_S2048x1025_S2048x1152_000_01270 h_S_⟩]
    concatenates_S2048x1152_S2048x1152_S2048x2304_d1

/-- The high part of the weights: the side-by-side matrix in the narrower float format. -/
theorem v9_eq : (V m c main_v9 : S2048x2304.Idx → EReal) = truncf (F := Ideal) .bf16 (wcat m c) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- The low part of the weights: what the narrower format loses, itself in the narrower format. -/
theorem v12_eq : (V m c main_v12 : S2048x2304.Idx → EReal) =
    truncf (F := Ideal) .bf16
      (subf (wcat m c) (extf (F := Ideal) .f32 (truncf (F := Ideal) .bf16 (wcat m c) bitsLt_bf16_f32) bitsLt_bf16_f32))
      bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

end Cert.Stft.Host

end
-- ==== Proof.HostPrefix.lean ====
/-
  The three arrays the kernel call reads, at an index, in terms of the argument arrays x (signal), Wr and Wi (weights).

  Signal chunks (64 × 328 × 512): entry (bc, j, k) with 512·j + k < 162048 is the reflect-padded signal at batch bc / 2,
  channel bc % 2, sample 512·j + k; the other entries are the pad value 0; so every entry is real when x's are.

  Weights, high part (2048 × 2304): at the ideal numbers a change of float format is the identity, so the high part is the
  side-by-side matrix itself: column k < 1025 of row n is Wr(k, n), column 1152 + k is Wi(k, n).

  Weights, low part: the side-by-side matrix minus itself, which is 0 at every entry because every entry is real.
-/
import proofs.«149669_j21380347199929_2_alg».proof.Proof.HostOpsAt
import proofs.«149669_j21380347199929_2_alg».proof.Proof.HostTerms

noncomputable section

namespace Cert.Stft.Host

open Cert.KernelIdeal Cert.KernelIdeal.Gen Cert.Stft Idealize.ShloMosaic Idealize.ShloMosaic.ValueIdx
open Idealize.ShloMosaic.TcCoe

variable (m : (ℓ : Loc nD τ sig) → Buf (Elt Ideal) ℓ) (c : Dev nD)

/-- A chunk entry inside the padded signal's length is that padded sample. -/
theorem chunks_at (bc : Fin 64) (j : Fin 328) (k : Fin 512) (h : j.val * 512 + k.val < 162048) :
    (V m c main_v3 : S64x328x512.Idx → EReal) (ix3 bc j k)
      = reflectPad (m ((c : Thread nD τ).loc main_arg0))
          (ix3 (⟨bc.val / 2, by omega⟩ : Fin 32) (⟨bc.val % 2, by omega⟩ : Fin 2) (⟨j.val * 512 + k.val, h⟩ : Fin 162048)) :=
  (congrFun (v3_eq m c) (ix3 bc j k)).trans
    (chunk_apply (reflectPad (m ((c : Thread nD τ).loc main_arg0))) (sitofp (F := Ideal) .f32 (constantI S_ 32 0#32))
      shapeCasts_S32x2x162048_S64x162048 pads_S64x162048_S64x167936_000_058880 h_S_ shapeCasts_S64x167936_S64x328x512 bc j k h)

/-- Every chunk entry is real when the signal's entries are. -/
theorem chunks_real (hx : AllReal (m ((c : Thread nD τ).loc main_arg0))) :
    AllReal (V m c main_v3 : S64x328x512.Idx → EReal) := by
  intro i
  obtain ⟨r, hr⟩ := chunk_mem (fun v : EReal => ∃ r : ℝ, v = (r : EReal))
    (reflectPad (m ((c : Thread nD τ).loc main_arg0))) (sitofp (F := Ideal) .f32 (constantI S_ 32 0#32))
    shapeCasts_S32x2x162048_S64x162048 pads_S64x162048_S64x167936_000_058880 h_S_ shapeCasts_S64x167936_S64x328x512
    (reflectPad_real _ hx) zero_real i
  exact ⟨r, (congrFun (v3_eq m c) i).trans hr⟩

/-- Every entry of the side-by-side weight matrix is real when the weights' entries are. -/
theorem wcat_real (h1 : AllReal (m ((c : Thread nD τ).loc main_arg1))) (h2 : AllReal (m ((c : Thread nD τ).loc main_arg2))) :
    AllReal (wcat m c) := by
  intro i
  unfold wcat
  exact wcat_mem (fun v : EReal => ∃ r : ℝ, v = (r : EReal)) _ _ concatenates_S2048x1152_S2048x1152_S2048x2304_d1
    (wpad_mem (fun v : EReal => ∃ r : ℝ, v = (r : EReal)) (m ((c : Thread nD τ).loc main_arg1))
      (sitofp (F := Ideal) .f32 (constantI S_ 32 0#32))
      transposes_S1025x2048_S2048x1025_1_0 pads_S2048x1025_S2048x1152_000_01270 h_S_ h1 zero_real)
    (wpad_mem (fun v : EReal => ∃ r : ℝ, v = (r : EReal)) (m ((c : Thread nD τ).loc main_arg2))
      (sitofp (F := Ideal) .f32 (constantI S_ 32 0#32))
      transposes_S1025x2048_S2048x1025_1_0 pads_S2048x1025_S2048x1152_000_01270 h_S_ h2 zero_real) i

/-- The high part of the weights has the side-by-side matrix's entries. -/
theorem whi_eq (i : S2048x2304.Idx) : (V m c main_v9 : S2048x2304.Idx → EReal) i = wcat m c i :=
  congrFun (v9_eq m c) i

/-- Column k < 1025 of the high part is the first weight matrix, transposed. -/
theorem whi_re (n : Fin 2048) (k : Fin 1025) :
    (V m c main_v9 : S2048x2304.Idx → EReal) (ix2 n (⟨k.val, by omega⟩ : Fin 2304)) = m ((c : Thread nD τ).loc main_arg1) (ix2 k n) := by
  refine (whi_eq m c _).trans ?_
  unfold wcat
  exact (wcat_left _ _ concatenates_S2048x1152_S2048x1152_S2048x2304_d1 n (⟨k.val, by omega⟩ : Fin 1152)).trans
    (wpad_apply _ _ transposes_S1025x2048_S2048x1025_1_0 pads_S2048x1025_S2048x1152_000_01270 h_S_ n k)

/-- Column 1152 + k, k < 1025, of the high part is the second weight matrix, transposed. -/
theorem whi_im (n : Fin 2048) (k : Fin 1025) :
    (V m c main_v9 : S2048x2304.Idx → EReal) (ix2 n (⟨1152 + k.val, by omega⟩ : Fin 2304)) = m ((c : Thread nD τ).loc main_arg2) (ix2 k n) := by
  refine (whi_eq m c _).trans ?_
  unfold wcat
  exact (wcat_right _ _ concatenates_S2048x1152_S2048x1152_S2048x2304_d1 n (⟨k.val, by omega⟩ : Fin 1152)).trans
    (wpad_apply _ _ transposes_S1025x2048_S2048x1025_1_0 pads_S2048x1025_S2048x1152_000_01270 h_S_ n k)

/-- Every entry of the high part is real when the weights' entries are. -/
theorem whi_real (h1 : AllReal (m ((c : Thread nD τ).loc main_arg1))) (h2 : AllReal (m ((c : Thread nD τ).loc main_arg2))) :
    AllReal (V m c main_v9 : S2048x2304.Idx → EReal) := by
  intro i
  obtain ⟨r, hr⟩ := wcat_real m c h1 h2 i
  exact ⟨r, (whi_eq m c i).trans hr⟩

/-- The low part of the weights is 0 everywhere: a real number minus itself. -/
theorem wlo_zero (h1 : AllReal (m ((c : Thread nD τ).loc main_arg1))) (h2 : AllReal (m ((c : Thread nD τ).loc main_arg2)))
    (i : S2048x2304.Idx) : (V m c main_v12 : S2048x2304.Idx → EReal) i = (0 : EReal) :=
  (congrFun (v12_eq m c) i).trans (sub_self_of_real (wcat m c i) (wcat_real m c h1 h2 i))

end Cert.Stft.Host

end
-- ==== Proof.PreReal.lean ====
/-
  From the precondition to "every entry of the three argument arrays is a real number".

  The precondition is the conjunction, over the three arrays, of "all entries satisfy |v| < +∞".  A conjunction of
  one-bit words is 1 exactly when both are; an and-reduction to one word that is 1 had a 1 at every entry; the
  pattern 0x7F800000 denotes +∞; and an extended real whose absolute value max(v, −v) is below +∞ is neither
  infinity (for v = −∞ the absolute value is +∞ too), hence a real number.
-/
import proofs.«149669_j21380347199929_2_alg».proof.Defs
import proofs.«149669_j21380347199929_2_alg».proof.Proof.Gen.Pre_finite_inputs
import Idealize.ShloMosaic.Lib.ReduceAll
import Idealize.ShloMosaic.Lib.ValueIdx
import Idealize.ShloMosaic.Lib.Affine
import proofs.«149669_j21380347199929_2_alg».proof.Proof.Spec

noncomputable section

namespace Cert.Stft.Pre

open Cert.Stft Idealize.ShloMosaic Idealize.SL.Sem

instance : Subsingleton Cert.Pre_finite_inputs.S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

theorem ofBool_eq_one (b : Bool) : BitVec.ofBool b = 1#1 ↔ b = true := by cases b <;> decide

/-- A number whose absolute value is below +∞ is a real number. -/
theorem real_of_abs_lt (x : EReal)
    (h : FloatOps.cmpf (F := Ideal) .olt (FloatOps.hostAbsf (F := Ideal) (φ := .f32) x) (Ideal.ofBits .f32 0x7F800000#32) = 1#1) :
    ∃ r : ℝ, x = (r : EReal) := by
  rw [inf_bits] at h
  change Ideal.cmp .olt (max x (-x)) ⊤ = 1#1 at h
  unfold Ideal.cmp at h
  rw [ofBool_eq_one] at h
  simp only [decide_eq_true_eq] at h
  induction x using EReal.rec with
  | bot => simp at h
  | coe r => exact ⟨r, rfl⟩
  | top => simp at h

/-- The printed predicate, all ones, says every entry of its three arguments is real. -/
theorem real_of_fn [Cert.Pre_finite_inputs.Facts]
    (x : FVec Ideal Cert.Pre_finite_inputs.S32x2x160000 .f32) (wr wi : FVec Ideal Cert.Pre_finite_inputs.S1025x2048 .f32)
    (h : Cert.Pre_finite_inputs.fn (F := Ideal) x wr wi = fun _ => 1#1) :
    AllReal x ∧ AllReal wr ∧ AllReal wi := by
  have e := congrFun h ValueIdx.ix0
  dsimp only [Cert.Pre_finite_inputs.fn] at e
  simp only [andi] at e
  rw [IntOp.andi_eq_one, IntOp.andi_eq_one] at e
  obtain ⟨⟨e0, e1⟩, e2⟩ := e
  refine ⟨fun i => ?_, fun i => ?_, fun i => ?_⟩
  · exact real_of_abs_lt (x i) (Host.reduce_andi_all _ _ _ _ _ e0 i)
  · exact real_of_abs_lt (wr i) (Host.reduce_andi_all _ _ _ _ _ e1 i)
  · exact real_of_abs_lt (wi i) (Host.reduce_andi_all _ _ _ _ _ e2 i)

/-- Under the kernel program's precondition every entry of its three argument arrays is real, on every device. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1))
      ∧ AllReal (m ((c.tc : Thread Cert.KernelIdeal.nD Cert.KernelIdeal.τ).loc Cert.KernelIdeal.main_arg2)) :=
  real_of_fn _ _ _ (h c)

end Cert.Stft.Pre

end
-- ==== Proof.RefOps.lean ====
/-
  The reference program's @main as one list of its thirty host operations, the two module-local functions
  (the reflect padding and the reversal it calls twice) unfolded at their call sites over the call's buffers,
  and its run: every weakly fair execution terminates with each buffer at the fold of the operations over the
  launch contents.
-/
import proofs.«149669_j21380347199929_2_alg».proof.Proof.Gen.ReferenceIdeal
import Idealize.ShloMosaic.Lib.StableHlo.Run

noncomputable section

namespace Cert.Stft.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the scalar zero; the padding's eight (two slices, the reversal,
    a concatenation, two slices, the reversal, a concatenation); then the index arithmetic, the gather and the two
    contractions. -/
abbrev ops : List (HloOp τ sig (Elt F)) :=
  [ nullary main_c (constantI S_ 32 0#32),
    TRef.unary (.of main_arg0 : TRef sig ⟨S32x2x160000, .f32⟩) main_call0.v0 (extractStridedSlice S32x2x1 ![0, 0, 0] · slices_S32x2x160000_S32x2x1_0_0_0),
    TRef.unary (.of main_arg0 : TRef sig ⟨S32x2x160000, .f32⟩) main_call0.v1 (extractStridedSlice S32x2x1024 ![0, 0, 1] · slices_S32x2x160000_S32x2x1024_0_0_1),
    TRef.unary main_call0.v1 main_call0.call0.v0 (Host.reverse [2]),
    TRef.binary main_call0.call0.v0 (.of main_arg0 : TRef sig ⟨S32x2x160000, .f32⟩) main_call0.v3 (fun a b => concatenate S32x2x161024 2 [⟨S32x2x1024, a⟩, ⟨S32x2x160000, b⟩] concatenates_S32x2x1024_S32x2x160000_S32x2x161024_d2),
    TRef.unary main_call0.v3 main_call0.v4 (extractStridedSlice S32x2x1 ![0, 0, 161023] · slices_S32x2x161024_S32x2x1_0_0_161023),
    TRef.unary main_call0.v3 main_call0.v5 (extractStridedSlice S32x2x1024 ![0, 0, 159999] · slices_S32x2x161024_S32x2x1024_0_0_159999),
    TRef.unary main_call0.v5 main_call0.call1.v0 (Host.reverse [2]),
    TRef.binary main_call0.v3 main_call0.call1.v0 main_call0.v7 (fun a b => concatenate S32x2x162048 2 [⟨S32x2x161024, a⟩, ⟨S32x2x1024, b⟩] concatenates_S32x2x161024_S32x2x1024_S32x2x162048_d2),
    nullary main_v1 (iotaInDim S313 32 0),
    unary main_v1 main_v2 (broadcastInDim S313x1 ![0] bcast_S313_S313x1_0 : (⟨S313, .i32⟩ : BufTy).Contents (Elt F) → (⟨S313x1, .i32⟩ : BufTy).Contents (Elt F)),
    nullary main_c_0 (constantI S_ 32 512#32),
    unary main_c_0 main_v3 (broadcastInDim S313x1 ![] bcast_S_S313x1 : (⟨S_, .i32⟩ : BufTy).Contents (Elt F) → (⟨S313x1, .i32⟩ : BufTy).Contents (Elt F)),
    binary main_v2 main_v3 main_v4 (muli : (⟨S313x1, .i32⟩ : BufTy).Contents (Elt F) → (⟨S313x1, .i32⟩ : BufTy).Contents (Elt F) → (⟨S313x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S313x2048 ![0, 1] bcast_S313x1_S313x2048_0_1 : (⟨S313x1, .i32⟩ : BufTy).Contents (Elt F) → (⟨S313x2048, .i32⟩ : BufTy).Contents (Elt F)),
    unary main_v6 main_v8 (broadcastInDim S313x2048 ![0, 1] bcast_S1x2048_S313x2048_0_1 : (⟨S1x2048, .i32⟩ : BufTy).Contents (Elt F) → (⟨S313x2048, .i32⟩ : BufTy).Contents (Elt F)),
    binary main_v7 main_v8 main_v9 (addi : (⟨S313x2048, .i32⟩ : BufTy).Contents (Elt F) → (⟨S313x2048, .i32⟩ : BufTy).Contents (Elt F) → (⟨S313x2048, .i32⟩ : BufTy).Contents (Elt F)),
    nullary main_c_1 (constantI S_ 32 0#32),
    unary main_c_1 main_v10 (broadcastInDim S313x2048 ![] bcast_S_S313x2048 : (⟨S_, .i32⟩ : BufTy).Contents (Elt F) → (⟨S313x2048, .i32⟩ : BufTy).Contents (Elt F)),
    binary main_v9 main_v10 main_v11 (cmpi .slt : (⟨S313x2048, .i32⟩ : BufTy).Contents (Elt F) → (⟨S313x2048, .i32⟩ : BufTy).Contents (Elt F) → (⟨S313x2048, .i1⟩ : BufTy).Contents (Elt F)),
    nullary main_c_2 (constantI S_ 32 162048#32),
    unary main_c_2 main_v12 (broadcastInDim S313x2048 ![] bcast_S_S313x2048 : (⟨S_, .i32⟩ : BufTy).Contents (Elt F) → (⟨S313x2048, .i32⟩ : BufTy).Contents (Elt F)),
    binary main_v9 main_v12 main_v13 (addi : (⟨S313x2048, .i32⟩ : BufTy).Contents (Elt F) → (⟨S313x2048, .i32⟩ : BufTy).Contents (Elt F) → (⟨S313x2048, .i32⟩ : BufTy).Contents (Elt F)),
    ternary main_v11 main_v13 main_v9 main_v14 (select : (⟨S313x2048, .i1⟩ : BufTy).Contents (Elt F) → (⟨S313x2048, .i32⟩ : BufTy).Contents (Elt F) → (⟨S313x2048, .i32⟩ : BufTy).Contents (Elt F) → (⟨S313x2048, .i32⟩ : BufTy).Contents (Elt F)),
    unary main_v14 main_v15 (broadcastInDim S313x2048x1 ![0, 1] bcast_S313x2048_S313x2048x1_0_1 : (⟨S313x2048, .i32⟩ : BufTy).Contents (Elt F) → (⟨S313x2048x1, .i32⟩ : BufTy).Contents (Elt F)),
    binary main_v0 main_v15 main_v16 ((fun x i => Host.gather gather_S32x2x162048_S313x2048x1_S32x2x313x2048_01_2_n_n_2_2_3221 x i) : (⟨S32x2x162048, .f32⟩ : BufTy).Contents (Elt F) → (⟨S313x2048x1, .i32⟩ : BufTy).Contents (Elt F) → (⟨S32x2x313x2048, .f32⟩ : BufTy).Contents (Elt F)),
    binary main_v16 main_arg1 main_v17 ((fun l r => Host.dotGeneral dot_S32x2x313x2048_S1025x2048_S32x2x313x1025_3_1_012_0_n_n none l r) : (⟨S32x2x313x2048, .f32⟩ : BufTy).Contents (Elt F) → (⟨S1025x2048, .f32⟩ : BufTy).Contents (Elt F) → (⟨S32x2x313x1025, .f32⟩ : BufTy).Contents (Elt F)),
    binary main_v16 main_arg2 main_v18 ((fun l r => Host.dotGeneral dot_S32x2x313x2048_S1025x2048_S32x2x313x1025_3_1_012_0_n_n none l r) : (⟨S32x2x313x2048, .f32⟩ : BufTy).Contents (Elt F) → (⟨S1025x2048, .f32⟩ : BufTy).Contents (Elt F) → (⟨S32x2x313x1025, .f32⟩ : BufTy).Contents (Elt F)) ]

-- thirty binds re-associated: the rewrite under the chain recurses once per statement
set_option maxRecDepth 4096 in
/-- @main is that straight line: the two functions' definitions unfolded at their calls, both sides are one chain
    of steps once sequencing is reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Stft.Ref

end
-- ==== Proof.RefTerm.lean ====
/-
  The reference's composed value: the 313 × 2048 table of start positions 512·t + n (32-bit words), the frames read
  from the padded signal at those positions, and the contraction of the frames' tap axis with a weight matrix's.
-/
import proofs.«149669_j21380347199929_2_alg».proof.Proof.Gen.ReferenceIdeal
import proofs.«149669_j21380347199929_2_alg».proof.Proof.Spec

noncomputable section

namespace Cert.Stft.Ref

open Cert.ReferenceIdeal Cert.ReferenceIdeal.Gen Idealize.ShloMosaic

/-- The word 512·t + n at (t, n): the frame number times 512 along the rows plus the tap number along the columns. -/
def words : IVec S313x2048 32 :=
  addi
    (broadcastInDim S313x2048 ![0, 1] bcast_S313x1_S313x2048_0_1
      (muli (broadcastInDim S313x1 ![0] bcast_S313_S313x1_0 (iotaInDim S313 32 0))
        (broadcastInDim S313x1 ![] bcast_S_S313x1 (constantI S_ 32 512#32))))
    (broadcastInDim S313x2048 ![0, 1] bcast_S1x2048_S313x2048_0_1
      (broadcastInDim S1x2048 ![1] bcast_S2048_S1x2048_1 (iotaInDim S2048 32 0)))

/-- The start positions: a negative word would have the padded length added (none is negative), then a unit axis. -/
def starts : IVec S313x2048x1 32 :=
  broadcastInDim S313x2048x1 ![0, 1] bcast_S313x2048_S313x2048x1_0_1
    (select (cmpi .slt words (broadcastInDim S313x2048 ![] bcast_S_S313x2048 (constantI S_ 32 0#32)))
      (addi words (broadcastInDim S313x2048 ![] bcast_S_S313x2048 (constantI S_ 32 162048#32)))
      words)

/-- Frame (b, c, t, n): the padded signal's sample at the start position of (t, n). -/
def frames (xp : SPad.Idx → EReal) : S32x2x313x2048.Idx → EReal :=
  Host.gather gather_S32x2x162048_S313x2048x1_S32x2x313x2048_01_2_n_n_2_2_3221 xp starts

/-- The reference's result for one weight matrix: the frames' tap axis contracted with the weights' tap axis. -/
def refTerm (x : SIn.Idx → EReal) (w : SWt.Idx → EReal) : SOut.Idx → EReal :=
  Host.dotGeneral (F := Ideal) (φ₁ := .f32) (φ₂ := .f32) dot_S32x2x313x2048_S1025x2048_S32x2x313x1025_3_1_012_0_n_n none (frames (reflectPad x)) w

end Cert.Stft.Ref

end
-- ==== Proof.RefRunTerm.lean ====
/-
  The reference's run read back: each result buffer ends at the composed value of the argument arrays
  (the padded signal's frames contracted with the weight matrix), the arguments unchanged.
-/
import proofs.«149669_j21380347199929_2_alg».proof.Proof.RefOps
import proofs.«149669_j21380347199929_2_alg».proof.Proof.RefTerm

noncomputable section

namespace Cert.Stft.Ref

open Cert.ReferenceIdeal Cert.ReferenceIdeal.Gen Idealize.ShloMosaic Idealize.ShloMosaic.TcCoe Idealize.SL.Sem Idealize.ShloMosaic.StableHlo

set_option maxHeartbeats 400000 in
/-- The first result's buffer after the thirty operations: the composed value of arguments 0 and 1. -/
theorem out17_eq (V : Valuation τ sig (Elt Ideal)) :
    after ops V (main_v17 : DevRef τ sig) = refTerm (V (main_arg0 : DevRef τ sig)) (V (main_arg1 : DevRef τ sig)) := by
  after_results_simp
  rfl

set_option maxHeartbeats 400000 in
/-- The second result's buffer: the composed value of arguments 0 and 2. -/
theorem out18_eq (V : Valuation τ sig (Elt Ideal)) :
    after ops V (main_v18 : DevRef τ sig) = refTerm (V (main_arg0 : DevRef τ sig)) (V (main_arg2 : DevRef τ sig)) := by
  after_results_simp
  rfl

theorem arg0_eq (V : Valuation τ sig (Elt Ideal)) : after ops V (main_arg0 : DevRef τ sig) = V (main_arg0 : DevRef τ sig) := by
  after_results
theorem arg1_eq (V : Valuation τ sig (Elt Ideal)) : after ops V (main_arg1 : DevRef τ sig) = V (main_arg1 : DevRef τ sig) := by
  after_results
theorem arg2_eq (V : Valuation τ sig (Elt Ideal)) : after ops V (main_arg2 : DevRef τ sig) = V (main_arg2 : DevRef τ sig) := by
  after_results

/-- Every weakly fair execution of the reference terminates with each result at the composed value of the launch
    contents of the arguments, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = refTerm (m ((c.tc : Thread nD τ).loc main_arg0)) (m ((c.tc : Thread nD τ).loc main_arg1))
      ∧ r.2.mem ((c.tc : Thread nD τ).loc main_v18) = refTerm (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (out17_eq _), (h c main_v18).trans (out18_eq _),
      (h c main_arg0).trans (arg0_eq _), (h c main_arg1).trans (arg1_eq _), (h c main_arg2).trans (arg2_eq _)⟩)
    (run_main m ρ)

end Cert.Stft.Ref

end
-- ==== Proof.RefValue.lean ====
/-
  The reference's composed value read index by index: the start position of (t, n) is the word 512·t + n, never
  negative and inside the padded signal, so frame (b, c, t, n) is padded sample 512·t + n of (b, c); the contraction
  at (b, c, t, k) is then the sum over the 2048 taps of that sample times weight (k, n).
-/
import proofs.«149669_j21380347199929_2_alg».proof.Proof.RefTerm
import Idealize.ShloMosaic.PureOps.Ideal.Laws
import Idealize.ShloMosaic.Lib.ValueIdx

noncomputable section

namespace Cert.Stft.Ref

open Cert.ReferenceIdeal Cert.ReferenceIdeal.Gen Idealize.ShloMosaic Idealize.ShloMosaic.ValueIdx

/-! ## The start positions -/

/-- 512·t + n as a 32-bit word: the product and the sum do not wrap. -/
theorem word_arith (t : Fin 313) (n : Fin 2048) :
    IntOp.addi (IntOp.muli (BitVec.ofNat 32 t.val) 512#32) (BitVec.ofNat 32 n.val) = BitVec.ofNat 32 (t.val * 512 + n.val) := by
  apply BitVec.eq_of_toNat_eq
  simp only [IntOp.addi, IntOp.muli, BitVec.toNat_add, BitVec.toNat_mul, BitVec.toNat_ofNat, Nat.reducePow, Nat.reduceMod]
  have := t.isLt; have := n.isLt
  omega

/-- The word at (t, n). -/
theorem words_apply (t : Fin 313) (n : Fin 2048) : words (ix2 t n) = BitVec.ofNat 32 (t.val * 512 + n.val) :=
  (show words (ix2 t n) = IntOp.addi (IntOp.muli (BitVec.ofNat 32 t.val) 512#32) (BitVec.ofNat 32 n.val) from rfl).trans
    (word_arith t n)

/-- A word below 2³¹ is not negative. -/
theorem not_neg (k : Nat) (hk : k < 2147483648) : IntOp.cmpi .slt (BitVec.ofNat 32 k) 0#32 = 0#1 := by
  have h : (BitVec.ofNat 32 k).slt 0#32 = false := by
    simp only [BitVec.slt, BitVec.toInt_eq_toNat_cond, BitVec.toNat_ofNat, Nat.reducePow, decide_eq_false_iff_not]
    simp only [BitVec.toNat_ofNat, Nat.reducePow, Nat.zero_mod]
    omega
  show BitVec.ofBool ((BitVec.ofNat 32 k).slt 0#32) = 0#1
  rw [h]; rfl

/-- The start position at (t, n, 0): the word itself. -/
theorem starts_apply (t : Fin 313) (n : Fin 2048) (z : Fin 1) : starts (ix3 t n z) = BitVec.ofNat 32 (t.val * 512 + n.val) := by
  have h0 : starts (ix3 t n z)
      = Scalar.select (IntOp.cmpi .slt (words (ix2 t n)) 0#32) (IntOp.addi (words (ix2 t n)) 162048#32) (words (ix2 t n)) := rfl
  rw [h0, words_apply, not_neg _ (by have := t.isLt; have := n.isLt; omega)]
  rfl

/-! ## The frames -/

local notation "G" => gather_S32x2x162048_S313x2048x1_S32x2x313x2048_01_2_n_n_2_2_3221

/-- The start-indices index at which result index (b, c, t, n) reads its one start component: (t, n, 0). -/
theorem siIdx_eq (b : Fin 32) (c : Fin 2) (t : Fin 313) (n : Fin 2048) (q : Fin (GatherDims.startIndexMap G).length) :
    GatherDims.siIdx G (ix4 b c t n) q = ix3 t n (0 : Fin 1) := by
  funext a; refine Fin.ext ?_
  match a with
  | ⟨0, _⟩ => rfl
  | ⟨1, _⟩ => rfl
  | ⟨2, _⟩ => have := q.isLt; exact Nat.lt_one_iff.mp this

/-- The operand index of result index (b, c, t, n) on the first offset axis: b. -/
theorem operand0 (b : Fin 32) (c : Fin 2) (t : Fin 313) (n : Fin 2048) :
    (GatherDims.operandIdx G (ix4 b c t n) starts (0 : Fin 3)).val = b.val := by
  show GatherDims.start G (ix4 b c t n) starts (0 : Fin 3) + GatherDims.batchCoord G (ix4 b c t n) (0 : Fin 3)
    + GatherDims.offCoord G (ix4 b c t n) (0 : Fin 3) = _
  rw [GatherDims.batchCoord_eq_zero _ _ _ List.not_mem_nil, Nat.add_zero]
  unfold GatherDims.start GatherDims.offCoord
  rw [dif_neg (show ¬ ((0 : Fin 3) ∈ GatherDims.startIndexMap G) by decide), dif_pos (show (0 : Fin 3) ∈ GatherDims.sKept G by decide), Nat.zero_add]
  rfl

/-- On the second offset axis: c. -/
theorem operand1 (b : Fin 32) (c : Fin 2) (t : Fin 313) (n : Fin 2048) :
    (GatherDims.operandIdx G (ix4 b c t n) starts (1 : Fin 3)).val = c.val := by
  show GatherDims.start G (ix4 b c t n) starts (1 : Fin 3) + GatherDims.batchCoord G (ix4 b c t n) (1 : Fin 3)
    + GatherDims.offCoord G (ix4 b c t n) (1 : Fin 3) = _
  rw [GatherDims.batchCoord_eq_zero _ _ _ List.not_mem_nil, Nat.add_zero]
  unfold GatherDims.start GatherDims.offCoord
  rw [dif_neg (show ¬ ((1 : Fin 3) ∈ GatherDims.startIndexMap G) by decide), dif_pos (show (1 : Fin 3) ∈ GatherDims.sKept G by decide), Nat.zero_add]
  rfl

/-- On the collapsed axis: the start position 512·t + n, which the clamp into the padded signal leaves alone. -/
theorem operand2 (b : Fin 32) (c : Fin 2) (t : Fin 313) (n : Fin 2048) :
    (GatherDims.operandIdx G (ix4 b c t n) starts (2 : Fin 3)).val = t.val * 512 + n.val := by
  show GatherDims.start G (ix4 b c t n) starts (2 : Fin 3) + GatherDims.batchCoord G (ix4 b c t n) (2 : Fin 3)
    + GatherDims.offCoord G (ix4 b c t n) (2 : Fin 3) = _
  rw [GatherDims.batchCoord_eq_zero _ _ _ List.not_mem_nil, Nat.add_zero]
  unfold GatherDims.start GatherDims.offCoord
  rw [dif_pos (show (2 : Fin 3) ∈ GatherDims.startIndexMap G by decide), dif_neg (show ¬ ((2 : Fin 3) ∈ GatherDims.sKept G) by decide), Nat.add_zero,
    siIdx_eq, starts_apply]
  have hk := tap_lt t n
  have hI : (BitVec.ofNat 32 (t.val * 512 + n.val)).toInt.toNat = t.val * 512 + n.val := by
    rw [BitVec.toInt_eq_toNat_cond]
    simp only [BitVec.toNat_ofNat, Nat.reducePow]
    omega
  rw [hI]
  show min (t.val * 512 + n.val) (162048 - 1) = t.val * 512 + n.val
  omega

/-- Frame (b, c, t, n) is padded sample 512·t + n of (b, c). -/
theorem frames_apply (xp : SPad.Idx → EReal) (b : Fin 32) (c : Fin 2) (t : Fin 313) (n : Fin 2048) :
    frames xp (ix4 b c t n) = xp (ix3 b c (⟨t.val * 512 + n.val, tap_lt t n⟩ : Fin 162048)) := by
  unfold frames Host.gather
  refine congrArg xp (funext fun a => Fin.ext ?_)
  match a with
  | ⟨0, _⟩ => exact operand0 b c t n
  | ⟨1, _⟩ => exact operand1 b c t n
  | ⟨2, _⟩ => exact operand2 b c t n

/-! ## The contraction -/

local notation "D" => dot_S32x2x313x2048_S1025x2048_S32x2x313x1025_3_1_012_0_n_n

/-- The left operand's index at result index `i` and contraction index `q`, axis by axis: the three free axes read `i`,
    the tap axis reads `q`. -/
theorem lhs_0 (i : SOut.Idx) (q : (DotDims.contr D).Idx) : (DotDims.lhsIdx D i q (0 : Fin 4)).val = (i (0 : Fin 4)).val := by
  unfold DotDims.lhsIdx
  rw [dif_neg (show ¬ ((0 : Fin 4) ∈ DotDims.lhsBatch D) by decide), dif_pos (show (0 : Fin 4) ∈ DotDims.lhsNonContracting D by decide)]
  rfl
theorem lhs_1 (i : SOut.Idx) (q : (DotDims.contr D).Idx) : (DotDims.lhsIdx D i q (1 : Fin 4)).val = (i (1 : Fin 4)).val := by
  unfold DotDims.lhsIdx
  rw [dif_neg (show ¬ ((1 : Fin 4) ∈ DotDims.lhsBatch D) by decide), dif_pos (show (1 : Fin 4) ∈ DotDims.lhsNonContracting D by decide)]
  rfl
theorem lhs_2 (i : SOut.Idx) (q : (DotDims.contr D).Idx) : (DotDims.lhsIdx D i q (2 : Fin 4)).val = (i (2 : Fin 4)).val := by
  unfold DotDims.lhsIdx
  rw [dif_neg (show ¬ ((2 : Fin 4) ∈ DotDims.lhsBatch D) by decide), dif_pos (show (2 : Fin 4) ∈ DotDims.lhsNonContracting D by decide)]
  rfl
theorem lhs_3 (i : SOut.Idx) (q : (DotDims.contr D).Idx) : (DotDims.lhsIdx D i q (3 : Fin 4)).val = (q ⟨0, by decide⟩).val :=
  DotDims.lhsIdx_val_of_single D rfl i q

/-- The right operand's: the output-channel axis reads `i`'s last coordinate, the tap axis reads `q`. -/
theorem rhs_0 (i : SOut.Idx) (q : (DotDims.contr D).Idx) : (DotDims.rhsIdx D i q (0 : Fin 2)).val = (i (3 : Fin 4)).val := by
  unfold DotDims.rhsIdx
  rw [dif_neg (show ¬ ((0 : Fin 2) ∈ DotDims.rhsBatch D) by decide), dif_pos (show (0 : Fin 2) ∈ DotDims.rhsNonContracting D by decide)]
  rfl
theorem rhs_1 (i : SOut.Idx) (q : (DotDims.contr D).Idx) : (DotDims.rhsIdx D i q (1 : Fin 2)).val = (q ⟨0, by decide⟩).val :=
  DotDims.rhsIdx_val_of_single D rfl i q

/-- The contraction at (b, c, t, k): the sum over the 2048 taps of the left operand at (b, c, t, n) times the right at (k, n). -/
theorem dot_apply (fr : S32x2x313x2048.Idx → EReal) (w : SWt.Idx → EReal) (b : Fin 32) (c : Fin 2) (t : Fin 313) (k : Fin 1025) :
    Host.dotGeneral (F := Ideal) (φ₁ := .f32) (φ₂ := .f32) D none fr w (ix4 b c t k) = ∑ n : Fin 2048, fr (ix4 b c t n) * w (ix2 k n) := by
  simp only [Host.dotGeneral]
  rw [Ideal.dotGeneral_apply, ← Equiv.sum_comp (contrEquiv1 D 2048 rfl rfl).symm]
  refine Finset.sum_congr rfl fun n _ => ?_
  have hk := contrEquiv1_symm_val D 2048 rfl rfl n
  have el : DotDims.lhsIdx D (ix4 b c t k) ((contrEquiv1 D 2048 rfl rfl).symm n) = ix4 b c t n := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : DotDims.rhsIdx D (ix4 b c t k) ((contrEquiv1 D 2048 rfl rfl).symm n) = ix2 k n := funext fun a => Fin.ext (by
    match a with
    | ⟨0, _⟩ => exact rhs_0 _ _
    | ⟨1, _⟩ => exact (rhs_1 _ _).trans hk)
  rw [el, er]

/-! ## The reference's value -/

/-- The reference's composed value is the transform of the padded signal. -/
theorem refTerm_eq (x : SIn.Idx → EReal) (w : SWt.Idx → EReal) : refTerm x w = dft (reflectPad x) w := by
  funext i
  obtain ⟨b, c, t, k, rfl⟩ : ∃ b c t k, i = ix4 b c t k := ⟨_, _, _, _, eq_ix4 i⟩
  rw [dft_ix4]
  unfold refTerm dftAt
  rw [dot_apply]
  exact Finset.sum_congr rfl fun n _ => by rw [frames_apply]

end Cert.Stft.Ref

end
-- ==== Proof.RefRun.lean ====
/-
  The reference's run: every weakly fair execution terminates with the two result buffers at the transform of the
  reflect-padded first argument by the second and by the third argument, and the three arguments unchanged.
-/
import proofs.«149669_j21380347199929_2_alg».proof.Proof.RefRunTerm
import proofs.«149669_j21380347199929_2_alg».proof.Proof.RefValue

noncomputable section

namespace Cert.Stft.Ref

open Idealize.ShloMosaic Idealize.ShloMosaic.TcCoe Idealize.SL.Sem

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v17)
            = Cert.Stft.dft (Cert.Stft.reflectPad (m ((c.tc : Thread _ _).loc Cert.ReferenceIdeal.main_arg0))) (m ((c.tc : Thread _ _).loc Cert.ReferenceIdeal.main_arg1))
        ∧ r.2.mem ((c.tc : Thread _ _).loc Cert.ReferenceIdeal.main_v18)
            = Cert.Stft.dft (Cert.Stft.reflectPad (m ((c.tc : Thread _ _).loc Cert.ReferenceIdeal.main_arg0))) (m ((c.tc : Thread _ _).loc Cert.ReferenceIdeal.main_arg2))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)) :=
  (θ_run _ _ _).mono (fun _ h c => by
      obtain ⟨h17, h18, h0, h1, h2⟩ := h c
      exact ⟨h17.trans (refTerm_eq _ _), h18.trans (refTerm_eq _ _), h0, h1, h2⟩)
    (run_term m ρ)

end Cert.Stft.Ref

end
-- ==== Proof.lean ====
/-
  A short-time Fourier transform computed as a matrix product, against its direct definition.

  Both programs reflect-pad each of the 32 × 2 signals (160000 samples) by 1024 samples on each side.  The reference
  gathers, for every frame t < 313, the 2048 padded samples from 512·t on, and contracts them with each 1025 × 2048
  weight matrix: result(b, c, t, k) = Σ_{n < 2048} padded(b, c, 512·t + n) · W(k, n).

  The kernel cuts the padded signal into chunks of 512 samples (a frame is four consecutive chunks), transposes and
  pads the two weight matrices side by side into one 2048 × 2304 array, and splits every factor into a part rounded
  to the narrow format and the remainder; per shift i < 4 it adds segment·high + segment·low + remainder·high.  Over the
  extended reals rounding is the identity, so a remainder is x − x, which is 0 exactly when x is a real number: this is
  where the precondition (every input finite) is used, and the claim is false without it.  What is left is
  Σ_{i < 4} Σ_{j < 512} padded(512·(t + i) + j) · W(k, 512·i + j), the same sum with the taps grouped in four blocks.

  The frames of the two kernel programs are the generated ones; the reference's frame is its run with the results
  dropped.  The idealization removed four round trips narrow → wide of a 320 × 512 segment: one statement each.
-/
import proofs.«149669_j21380347199929_2_alg».proof.Defs
import proofs.«149669_j21380347199929_2_alg».proof.Proof.Gen.Kernel
import proofs.«149669_j21380347199929_2_alg».proof.Proof.Gen.Kernel.Skeleton
import proofs.«149669_j21380347199929_2_alg».proof.Proof.Gen.Kernel.Launch
import proofs.«149669_j21380347199929_2_alg».proof.Proof.Gen.Kernel.Points
import proofs.«149669_j21380347199929_2_alg».proof.Proof.Gen.Kernel.Frame
import proofs.«149669_j21380347199929_2_alg».proof.Proof.Gen.KernelIdeal
import proofs.«149669_j21380347199929_2_alg».proof.Proof.Gen.KernelIdeal.Skeleton
import proofs.«149669_j21380347199929_2_alg».proof.Proof.Gen.KernelIdeal.Launch
import proofs.«149669_j21380347199929_2_alg».proof.Proof.Gen.KernelIdeal.Points
import proofs.«149669_j21380347199929_2_alg».proof.Proof.Gen.KernelIdeal.Frame
import proofs.«149669_j21380347199929_2_alg».proof.Proof.Gen.ReferenceIdeal
import proofs.«149669_j21380347199929_2_alg».proof.Proof.Gen.Pre_finite_inputs
import proofs.«149669_j21380347199929_2_alg».proof.Proof.KernelRun
import proofs.«149669_j21380347199929_2_alg».proof.Proof.HostPrefix
import proofs.«149669_j21380347199929_2_alg».proof.Proof.PreReal
import proofs.«149669_j21380347199929_2_alg».proof.Proof.RefRun
import Idealize.ShloMosaic.Adequacy
import Idealize.ShloMosaic.Init

noncomputable section

namespace Cert.Proof

open Idealize.ShloMosaic Idealize.ShloMosaic.TcCoe Idealize.SL.Sem Cert.Stft

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2.2) (Cert.Stft.Ref.run m ρ)

/-- Rounding a 320 × 512 segment to the narrow format and widening it back is the identity on the extended reals:
    once per shift. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both programs end with the transform of the reflect-padded signal against each weight matrix. -/
theorem algebraic : Cert.algebraic_KernelIdeal_ReferenceIdeal := by
  intro m ρ m' ρ' hpre hagree
  have hfin := fun c => Cert.Stft.Pre.real_of_pre m hpre c
  refine ⟨fun c => dft (reflectPad (m ((c.tc : Thread Cert.KernelIdeal.nD Cert.KernelIdeal.τ).loc Cert.KernelIdeal.main_arg0)))
        (m ((c.tc : Thread Cert.KernelIdeal.nD Cert.KernelIdeal.τ).loc Cert.KernelIdeal.main_arg1)),
      fun c => dft (reflectPad (m ((c.tc : Thread Cert.KernelIdeal.nD Cert.KernelIdeal.τ).loc Cert.KernelIdeal.main_arg0)))
        (m ((c.tc : Thread Cert.KernelIdeal.nD Cert.KernelIdeal.τ).loc Cert.KernelIdeal.main_arg2)), ?_, ?_⟩
  · exact Cert.Stft.KRun.run m ρ
      (fun c => reflectPad (m ((c.tc : Thread Cert.KernelIdeal.nD Cert.KernelIdeal.τ).loc Cert.KernelIdeal.main_arg0)))
      (fun c => m ((c.tc : Thread Cert.KernelIdeal.nD Cert.KernelIdeal.τ).loc Cert.KernelIdeal.main_arg1))
      (fun c => m ((c.tc : Thread Cert.KernelIdeal.nD Cert.KernelIdeal.τ).loc Cert.KernelIdeal.main_arg2))
      (fun c => Cert.Stft.Host.chunks_at m c) (fun c => Cert.Stft.Host.chunks_real m c (hfin c).1)
      (fun c => Cert.Stft.Host.whi_re m c) (fun c => Cert.Stft.Host.whi_im m c)
      (fun c => Cert.Stft.Host.wlo_zero m c (hfin c).2.1 (hfin c).2.2)
  · refine (θ_run Cert.ReferenceIdeal.defs _ _).mono (fun _ h c => ?_) (Cert.Stft.Ref.run m' ρ')
    obtain ⟨h1, h2, h3, h4, h5⟩ := h c
    refine ⟨h1.trans ?_, h2.trans ?_, h3, h4, h5⟩
    · rw [(hagree c).1, (hagree c).2.1]
    · rw [(hagree c).1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
